-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x1 : Shape := ⟨2, ![16384, 1]⟩
abbrev S4096x5 : Shape := ⟨2, ![4096, 5]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S4096x5 : S_.BroadcastsInDim S4096x5 (![] : Fin 0 → Fin S4096x5.rank)
  reducesTo_S4096x5_S_d0_1 : S4096x5.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x5 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x5 .f32 := Host.absf main_arg4
  let main_cst_6 : FVec F S_ .f32 := constant S_ .f32 0x7F800000#32
  let main_v20 : FVec F S4096x5 .f32 := broadcastInDim S4096x5 ![] bcast_S_S4096x5 main_cst_6
  let main_v21 : IVec S4096x5 1 := cmpf .olt main_v19 main_v20
  let main_c_7 : IVec S_ 1 := constantI S_ 1 1#1
  let main_v22 : IVec S_ 1 := (fun x v => Host.reduce IntOp.andi x v reducesTo_S4096x5_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S16384x4096 .f32) (main_arg1 : FVec F S16384x1 .f32) (main_arg2 : FVec F S4096x5 .f32) (main_arg3 : FVec F S4096 .f32) (main_arg4 : FVec F S4096x5 .f32) (main_arg5 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S4096x5 .f32 := Host.absf main_arg2
  let main_cst_2 : FVec F S_ .f32 := constant S_ .f32 0x7F800000#32
  let main_v10 : FVec F S4096x5 .f32 := broadcastInDim S4096x5 ![] bcast_S_S4096x5 main_cst_2
  let main_v11 : IVec S4096x5 1 := cmpf .olt main_v9 main_v10
  let main_c_3 : IVec S_ 1 := constantI S_ 1 1#1
  let main_v12 : IVec S_ 1 := (fun x v => Host.reduce IntOp.andi x v reducesTo_S4096x5_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x4096 : Shape := ⟨2, ![16384, 4096]⟩
abbrev S16384x1 : Shape := ⟨2, ![16384, 1]⟩
abbrev S4096x5 : Shape := ⟨2, ![4096, 5]⟩
abbrev S4096 : Shape := ⟨1, ![4096]⟩
abbrev S9 : Shape := ⟨1, ![9]⟩
abbrev S_ : Shape := ⟨0, ![]⟩
abbrev S16384 : Shape := ⟨1, ![16384]⟩
abbrev S8 : Shape := ⟨1, ![8]⟩
abbrev S1x8 : Shape := ⟨2, ![1, 8]⟩
abbrev S16384x8 : Shape := ⟨2, ![16384, 8]⟩
abbrev S7 : Shape := ⟨1, ![7]⟩
abbrev S1x7 : Shape := ⟨2, ![1, 7]⟩
abbrev S16384x7 : Shape := ⟨2, ![16384, 7]⟩
abbrev S6 : Shape := ⟨1, ![6]⟩
abbrev S1x6 : Shape := ⟨2, ![1, 6]⟩
abbrev S16384x6 : Shape := ⟨2, ![16384, 6]⟩
abbrev S5 : Shape := ⟨1, ![5]⟩
abbrev S1x5 : Shape := ⟨2, ![1, 5]⟩
abbrev S16384x5 : Shape := ⟨2, ![16384, 5]⟩
abbrev S5x4096 : Shape := ⟨2, ![5, 4096]⟩
abbrev S1x4096 : Shape := ⟨2, ![1, 4096]⟩
abbrev S512x4096 : Shape := ⟨2, ![512, 4096]⟩
abbrev S512x5 : Shape := ⟨2, ![512, 5]⟩

abbrev nBuf : Space → Nat
  | .hbm => 208
  | .vmem => 10
  | .smem => 0
  | _ => 0

abbrev hbmTy0_0 (i : Nat) : BufTy := match i % 128 with
  | 0 => ⟨S16384x4096, .f32⟩
  | 1 => ⟨S16384x1, .f32⟩
  | 2 => ⟨S4096x5, .f32⟩
  | 3 => ⟨S4096, .f32⟩
  | 4 => ⟨S4096x5, .f32⟩
  | 5 => ⟨S4096, .f32⟩
  | 6 => ⟨S9, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S_, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384, .f32⟩
  | 22 => ⟨S_, .f32⟩
  | 23 => ⟨S_, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S8, .f32⟩
  | 32 => ⟨S1x8, .f32⟩
  | 33 => ⟨S8, .f32⟩
  | 34 => ⟨S1x8, .f32⟩
  | 35 => ⟨S1x8, .f32⟩
  | 36 => ⟨S16384x8, .f32⟩
  | 37 => ⟨S16384x8, .f32⟩
  | 38 => ⟨S16384x8, .i1⟩
  | 39 => ⟨S16384x8, .f32⟩
  | 40 => ⟨S16384x8, .f32⟩
  | 41 => ⟨S16384x8, .i1⟩
  | 42 => ⟨S16384x8, .i1⟩
  | 43 => ⟨S1x8, .f32⟩
  | 44 => ⟨S_, .f32⟩
  | 45 => ⟨S1x8, .f32⟩
  | 46 => ⟨S1x8, .i1⟩
  | 47 => ⟨S16384x8, .i1⟩
  | 48 => ⟨S16384x8, .i1⟩
  | 49 => ⟨S16384x8, .f32⟩
  | 50 => ⟨S7, .f32⟩
  | 51 => ⟨S7, .f32⟩
  | 52 => ⟨S7, .f32⟩
  | 53 => ⟨S7, .f32⟩
  | 54 => ⟨S7, .f32⟩
  | 55 => ⟨S7, .f32⟩
  | 56 => ⟨S7, .f32⟩
  | 57 => ⟨S_, .f32⟩
  | 58 => ⟨S7, .f32⟩
  | 59 => ⟨S7, .i1⟩
  | 60 => ⟨S7, .f32⟩
  | 61 => ⟨S_, .f32⟩
  | 62 => ⟨S7, .f32⟩
  | 63 => ⟨S7, .i1⟩
  | 64 => ⟨S1x7, .f32⟩
  | 65 => ⟨S16384x7, .f32⟩
  | 66 => ⟨S16384x7, .f32⟩
  | 67 => ⟨S16384x7, .f32⟩
  | 68 => ⟨S_, .f32⟩
  | 69 => ⟨S_, .f32⟩
  | 70 => ⟨S7, .f32⟩
  | 71 => ⟨S7, .f32⟩
  | 72 => ⟨S1x7, .f32⟩
  | 73 => ⟨S16384x7, .f32⟩
  | 74 => ⟨S16384x7, .f32⟩
  | 75 => ⟨S16384x7, .f32⟩
  | 76 => ⟨S16384x7, .f32⟩
  | 77 => ⟨S_, .f32⟩
  | 78 => ⟨S_, .f32⟩
  | 79 => ⟨S16384x7, .i1⟩
  | 80 => ⟨S16384x7, .f32⟩
  | 81 => ⟨S16384x7, .f32⟩
  | 82 => ⟨S1x7, .f32⟩
  | 83 => ⟨S16384x7, .f32⟩
  | 84 => ⟨S16384x7, .f32⟩
  | 85 => ⟨S16384x7, .f32⟩
  | 86 => ⟨S_, .f32⟩
  | 87 => ⟨S_, .f32⟩
  | 88 => ⟨S7, .f32⟩
  | 89 => ⟨S7, .f32⟩
  | 90 => ⟨S1x7, .f32⟩
  | 91 => ⟨S16384x7, .f32⟩
  | 92 => ⟨S16384x7, .f32⟩
  | 93 => ⟨S16384x7, .f32⟩
  | 94 => ⟨S16384x7, .f32⟩
  | 95 => ⟨S_, .f32⟩
  | 96 => ⟨S_, .f32⟩
  | 97 => ⟨S16384x7, .i1⟩
  | 98 => ⟨S16384x7, .f32⟩
  | 99 => ⟨S16384x7, .f32⟩
  | 100 => ⟨S16384x7, .f32⟩
  | 101 => ⟨S6, .f32⟩
  | 102 => ⟨S6, .f32⟩
  | 103 => ⟨S6, .f32⟩
  | 104 => ⟨S6, .f32⟩
  | 105 => ⟨S6, .f32⟩
  | 106 => ⟨S6, .f32⟩
  | 107 => ⟨S6, .f32⟩
  | 108 => ⟨S_, .f32⟩
  | 109 => ⟨S6, .f32⟩
  | 110 => ⟨S6, .i1⟩
  | 111 => ⟨S6, .f32⟩
  | 112 => ⟨S_, .f32⟩
  | 113 => ⟨S6, .f32⟩
  | 114 => ⟨S6, .i1⟩
  | 115 => ⟨S1x6, .f32⟩
  | 116 => ⟨S16384x6, .f32⟩
  | 117 => ⟨S16384x6, .f32⟩
  | 118 => ⟨S16384x6, .f32⟩
  | 119 => ⟨S_, .f32⟩
  | 120 => ⟨S_, .f32⟩
  | 121 => ⟨S6, .f32⟩
  | 122 => ⟨S6, .f32⟩
  | 123 => ⟨S1x6, .f32⟩
  | 124 => ⟨S16384x6, .f32⟩
  | 125 => ⟨S16384x6, .f32⟩
  | 126 => ⟨S16384x6, .f32⟩
  | 127 => ⟨S16384x6, .f32⟩
  | _ => ⟨S16384x4096, .f32⟩

abbrev hbmTy0_1 (i : Nat) : BufTy := match i % 128 with
  | 0 => ⟨S_, .f32⟩
  | 1 => ⟨S_, .f32⟩
  | 2 => ⟨S16384x6, .i1⟩
  | 3 => ⟨S16384x6, .f32⟩
  | 4 => ⟨S16384x6, .f32⟩
  | 5 => ⟨S1x6, .f32⟩
  | 6 => ⟨S16384x6, .f32⟩
  | 7 => ⟨S16384x6, .f32⟩
  | 8 => ⟨S16384x6, .f32⟩
  | 9 => ⟨S_, .f32⟩
  | 10 => ⟨S_, .f32⟩
  | 11 => ⟨S6, .f32⟩
  | 12 => ⟨S6, .f32⟩
  | 13 => ⟨S1x6, .f32⟩
  | 14 => ⟨S16384x6, .f32⟩
  | 15 => ⟨S16384x6, .f32⟩
  | 16 => ⟨S16384x6, .f32⟩
  | 17 => ⟨S16384x6, .f32⟩
  | 18 => ⟨S_, .f32⟩
  | 19 => ⟨S_, .f32⟩
  | 20 => ⟨S16384x6, .i1⟩
  | 21 => ⟨S16384x6, .f32⟩
  | 22 => ⟨S16384x6, .f32⟩
  | 23 => ⟨S16384x6, .f32⟩
  | 24 => ⟨S5, .f32⟩
  | 25 => ⟨S5, .f32⟩
  | 26 => ⟨S5, .f32⟩
  | 27 => ⟨S5, .f32⟩
  | 28 => ⟨S5, .f32⟩
  | 29 => ⟨S5, .f32⟩
  | 30 => ⟨S5, .f32⟩
  | 31 => ⟨S_, .f32⟩
  | 32 => ⟨S5, .f32⟩
  | 33 => ⟨S5, .i1⟩
  | 34 => ⟨S5, .f32⟩
  | 35 => ⟨S_, .f32⟩
  | 36 => ⟨S5, .f32⟩
  | 37 => ⟨S5, .i1⟩
  | 38 => ⟨S1x5, .f32⟩
  | 39 => ⟨S16384x5, .f32⟩
  | 40 => ⟨S16384x5, .f32⟩
  | 41 => ⟨S16384x5, .f32⟩
  | 42 => ⟨S_, .f32⟩
  | 43 => ⟨S_, .f32⟩
  | 44 => ⟨S5, .f32⟩
  | 45 => ⟨S5, .f32⟩
  | 46 => ⟨S1x5, .f32⟩
  | 47 => ⟨S16384x5, .f32⟩
  | 48 => ⟨S16384x5, .f32⟩
  | 49 => ⟨S16384x5, .f32⟩
  | 50 => ⟨S16384x5, .f32⟩
  | 51 => ⟨S_, .f32⟩
  | 52 => ⟨S_, .f32⟩
  | 53 => ⟨S16384x5, .i1⟩
  | 54 => ⟨S16384x5, .f32⟩
  | 55 => ⟨S16384x5, .f32⟩
  | 56 => ⟨S1x5, .f32⟩
  | 57 => ⟨S16384x5, .f32⟩
  | 58 => ⟨S16384x5, .f32⟩
  | 59 => ⟨S16384x5, .f32⟩
  | 60 => ⟨S_, .f32⟩
  | 61 => ⟨S_, .f32⟩
  | 62 => ⟨S5, .f32⟩
  | 63 => ⟨S5, .f32⟩
  | 64 => ⟨S1x5, .f32⟩
  | 65 => ⟨S16384x5, .f32⟩
  | 66 => ⟨S16384x5, .f32⟩
  | 67 => ⟨S16384x5, .f32⟩
  | 68 => ⟨S16384x5, .f32⟩
  | 69 => ⟨S_, .f32⟩
  | 70 => ⟨S_, .f32⟩
  | 71 => ⟨S16384x5, .i1⟩
  | 72 => ⟨S16384x5, .f32⟩
  | 73 => ⟨S16384x5, .f32⟩
  | 74 => ⟨S16384x5, .f32⟩
  | 75 => ⟨S5x4096, .f32⟩
  | 76 => ⟨S5x4096, .f32⟩
  | 77 => ⟨S1x4096, .f32⟩
  | 78 => ⟨S1x4096, .f32⟩
  | 79 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x5, .f32⟩
  | .local _ .vmem, ⟨3, _⟩ => ⟨S512x5, .f32⟩
  | .local _ .vmem, ⟨4, _⟩ => ⟨S5x4096, .f32⟩
  | .local _ .vmem, ⟨5, _⟩ => ⟨S1x4096, .f32⟩
  | .local _ .vmem, ⟨6, _⟩ => ⟨S5x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_call4_v0 : Ref sig .tc := ⟨.hbm, 87, rfl⟩
abbrev main_call4_v1 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_14 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_15 : Ref sig .tc := ⟨.hbm, 119, rfl⟩
abbrev main_call6_v0 : Ref sig .tc := ⟨.hbm, 120, rfl⟩
abbrev main_call6_v1 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_16 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_17 : Ref sig .tc := ⟨.hbm, 137, rfl⟩
abbrev main_call8_v0 : Ref sig .tc := ⟨.hbm, 138, rfl⟩
abbrev main_call8_v1 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_18 : Ref sig .tc := ⟨.hbm, 146, rfl⟩
abbrev main_call9_v0 : Ref sig .tc := ⟨.hbm, 147, rfl⟩
abbrev main_call9_v1 : Ref sig .tc := ⟨.hbm, 148, rfl⟩
abbrev main_call9_v2 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_19 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_20 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_21 : Ref sig .tc := ⟨.hbm, 170, rfl⟩
abbrev main_call10_v0 : Ref sig .tc := ⟨.hbm, 171, rfl⟩
abbrev main_call10_v1 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_22 : Ref sig .tc := ⟨.hbm, 179, rfl⟩
abbrev main_call11_v0 : Ref sig .tc := ⟨.hbm, 180, rfl⟩
abbrev main_call11_v1 : Ref sig .tc := ⟨.hbm, 181, rfl⟩
abbrev main_call11_v2 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_23 : Ref sig .tc := ⟨.hbm, 188, rfl⟩
abbrev main_call12_v0 : Ref sig .tc := ⟨.hbm, 189, rfl⟩
abbrev main_call12_v1 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_24 : Ref sig .tc := ⟨.hbm, 197, rfl⟩
abbrev main_call13_v0 : Ref sig .tc := ⟨.hbm, 198, rfl⟩
abbrev main_call13_v1 : Ref sig .tc := ⟨.hbm, 199, rfl⟩
abbrev main_call13_v2 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16384x1 : S_.BroadcastsInDim S16384x1 (![] : Fin 0 → Fin S16384x1.rank)
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S9_S8_0 : S9.Slices ![0] S8
  bcast_S8_S1x8_1 : S8.BroadcastsInDim S1x8 (![1] : Fin 1 → Fin S1x8.rank)
  slices_S9_S8_1 : S9.Slices ![1] S8
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  bcast_S_S1x8 : S_.BroadcastsInDim S1x8 (![] : Fin 0 → Fin S1x8.rank)
  slices_S9_S7_0 : S9.Slices ![0] S7
  slices_S9_S7_1 : S9.Slices ![1] S7
  slices_S9_S7_2 : S9.Slices ![2] S7
  bcast_S_S7 : S_.BroadcastsInDim S7 (![] : Fin 0 → Fin S7.rank)
  bcast_S7_S1x7_1 : S7.BroadcastsInDim S1x7 (![1] : Fin 1 → Fin S1x7.rank)
  bcast_S16384x1_S16384x7_0_1 : S16384x1.BroadcastsInDim S16384x7 (![0, 1] : Fin 2 → Fin S16384x7.rank)
  bcast_S1x7_S16384x7_0_1 : S1x7.BroadcastsInDim S16384x7 (![0, 1] : Fin 2 → Fin S16384x7.rank)
  slices_S16384x8_S16384x7_0_0 : S16384x8.Slices ![0, 0] S16384x7
  bcast_S7_S16384x7_1 : S7.BroadcastsInDim S16384x7 (![1] : Fin 1 → Fin S16384x7.rank)
  bcast_S_S16384x7 : S_.BroadcastsInDim S16384x7 (![] : Fin 0 → Fin S16384x7.rank)
  slices_S16384x8_S16384x7_0_1 : S16384x8.Slices ![0, 1] S16384x7
  slices_S9_S6_0 : S9.Slices ![0] S6
  slices_S9_S6_2 : S9.Slices ![2] S6
  slices_S9_S6_1 : S9.Slices ![1] S6
  slices_S9_S6_3 : S9.Slices ![3] S6
  bcast_S_S6 : S_.BroadcastsInDim S6 (![] : Fin 0 → Fin S6.rank)
  bcast_S6_S1x6_1 : S6.BroadcastsInDim S1x6 (![1] : Fin 1 → Fin S1x6.rank)
  bcast_S16384x1_S16384x6_0_1 : S16384x1.BroadcastsInDim S16384x6 (![0, 1] : Fin 2 → Fin S16384x6.rank)
  bcast_S1x6_S16384x6_0_1 : S1x6.BroadcastsInDim S16384x6 (![0, 1] : Fin 2 → Fin S16384x6.rank)
  slices_S16384x7_S16384x6_0_0 : S16384x7.Slices ![0, 0] S16384x6
  bcast_S6_S16384x6_1 : S6.BroadcastsInDim S16384x6 (![1] : Fin 1 → Fin S16384x6.rank)
  bcast_S_S16384x6 : S_.BroadcastsInDim S16384x6 (![] : Fin 0 → Fin S16384x6.rank)
  slices_S16384x7_S16384x6_0_1 : S16384x7.Slices ![0, 1] S16384x6
  slices_S9_S5_0 : S9.Slices ![0] S5
  slices_S9_S5_3 : S9.Slices ![3] S5
  slices_S9_S5_1 : S9.Slices ![1] S5
  slices_S9_S5_4 : S9.Slices ![4] S5
  bcast_S_S5 : S_.BroadcastsInDim S5 (![] : Fin 0 → Fin S5.rank)
  bcast_S5_S1x5_1 : S5.BroadcastsInDim S1x5 (![1] : Fin 1 → Fin S1x5.rank)
  bcast_S16384x1_S16384x5_0_1 : S16384x1.BroadcastsInDim S16384x5 (![0, 1] : Fin 2 → Fin S16384x5.rank)
  bcast_S1x5_S16384x5_0_1 : S1x5.BroadcastsInDim S16384x5 (![0, 1] : Fin 2 → Fin S16384x5.rank)
  slices_S16384x6_S16384x5_0_0 : S16384x6.Slices ![0, 0] S16384x5
  bcast_S5_S16384x5_1 : S5.BroadcastsInDim S16384x5 (![1] : Fin 1 → Fin S16384x5.rank)
  bcast_S_S16384x5 : S_.BroadcastsInDim S16384x5 (![] : Fin 0 → Fin S16384x5.rank)
  slices_S16384x6_S16384x5_0_1 : S16384x6.Slices ![0, 1] S16384x5
  transposes_S4096x5_S5x4096_1_0 : S4096x5.Transposes [1, 0] S5x4096
  shapeCasts_S4096_S1x4096 : S4096.ShapeCasts S1x4096
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S5x4096_S5x4096_0_0 : ∀ a, (![0, 0] : Fin 2 → Nat) a + S5x4096.size a ≤ S5x4096.size a
  h_S5x4096 : 0 < S5x4096.numel
  shapeCasts_S5x4096_S5x4096 : S5x4096.ShapeCasts S5x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x5_S5x4096_S512x4096_1_0_0_1_n_n_wf : DotDims.WF S512x5 S5x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S16384x5.size a
  hwx0_1 : ∀ i : grid0.Coords, EltTy.bits .f32 = 32 ∨ (Rect.block (s := S16384x5) S512x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x4096.size a ≤ S5x4096.size a
  hwx0_2 : ∀ i : grid0.Coords, EltTy.bits .f32 = 32 ∨ (Rect.block (s := S5x4096) S5x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x4096.size a ≤ S5x4096.size a
  hwx0_4 : ∀ i : grid0.Coords, EltTy.bits .f32 = 32 ∨ (Rect.block (s := S5x4096) S5x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S16384x4096.size a
  hwx0_6 : ∀ i : grid0.Coords, EltTy.bits .f32 = 32 ∨ (Rect.block (s := S16384x4096) S512x4096.size (cc0_transform_6 i) (hinb0_6 i)).WholeWords (EltTy.packing .f32)

variable [Facts₀]

def dot_S512x5_S5x4096_S512x4096_1_0_0_1_n_n : DotDims S512x5 S5x4096 S512x4096 where
  lhsContracting := [1]
  rhsContracting := [0]
  lhsNonContracting := [0]
  rhsNonContracting := [1]
  lhsBatch := []
  rhsBatch := []
  wf := dot_S512x5_S5x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v130) S512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v131) S5x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v133) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v132) S5x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v134) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v135) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x1 : Shape := ⟨2, ![16384, 1]⟩
abbrev S4096x5 : Shape := ⟨2, ![4096, 5]⟩
abbrev S4096 : Shape := ⟨1, ![4096]⟩
abbrev S9 : Shape := ⟨1, ![9]⟩
abbrev S_ : Shape := ⟨0, ![]⟩
abbrev S16384 : Shape := ⟨1, ![16384]⟩
abbrev S8 : Shape := ⟨1, ![8]⟩
abbrev S1x8 : Shape := ⟨2, ![1, 8]⟩
abbrev S16384x8 : Shape := ⟨2, ![16384, 8]⟩
abbrev S7 : Shape := ⟨1, ![7]⟩
abbrev S1x7 : Shape := ⟨2, ![1, 7]⟩
abbrev S16384x7 : Shape := ⟨2, ![16384, 7]⟩
abbrev S6 : Shape := ⟨1, ![6]⟩
abbrev S1x6 : Shape := ⟨2, ![1, 6]⟩
abbrev S16384x6 : Shape := ⟨2, ![16384, 6]⟩
abbrev S5 : Shape := ⟨1, ![5]⟩
abbrev S1x5 : Shape := ⟨2, ![1, 5]⟩
abbrev S16384x5 : Shape := ⟨2, ![16384, 5]⟩
abbrev S5x4096 : Shape := ⟨2, ![5, 4096]⟩
abbrev S1x4096 : Shape := ⟨2, ![1, 4096]⟩

abbrev nBuf : Space → Nat
  | .hbm => 215
  | .vmem => 0
  | .smem => 0
  | _ => 0

abbrev hbmTy0_0 (i : Nat) : BufTy := match i % 128 with
  | 0 => ⟨S16384x4096, .f32⟩
  | 1 => ⟨S16384x1, .f32⟩
  | 2 => ⟨S4096x5, .f32⟩
  | 3 => ⟨S4096, .f32⟩
  | 4 => ⟨S4096x5, .f32⟩
  | 5 => ⟨S4096, .f32⟩
  | 6 => ⟨S9, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S_, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384, .f32⟩
  | 22 => ⟨S_, .f32⟩
  | 23 => ⟨S_, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S8, .f32⟩
  | 32 => ⟨S1x8, .f32⟩
  | 33 => ⟨S8, .f32⟩
  | 34 => ⟨S1x8, .f32⟩
  | 35 => ⟨S1x8, .f32⟩
  | 36 => ⟨S16384x8, .f32⟩
  | 37 => ⟨S16384x8, .f32⟩
  | 38 => ⟨S16384x8, .i1⟩
  | 39 => ⟨S16384x8, .f32⟩
  | 40 => ⟨S16384x8, .f32⟩
  | 41 => ⟨S16384x8, .i1⟩
  | 42 => ⟨S16384x8, .i1⟩
  | 43 => ⟨S1x8, .f32⟩
  | 44 => ⟨S_, .f32⟩
  | 45 => ⟨S1x8, .f32⟩
  | 46 => ⟨S1x8, .i1⟩
  | 47 => ⟨S16384x8, .i1⟩
  | 48 => ⟨S16384x8, .i1⟩
  | 49 => ⟨S16384x8, .f32⟩
  | 50 => ⟨S7, .f32⟩
  | 51 => ⟨S7, .f32⟩
  | 52 => ⟨S7, .f32⟩
  | 53 => ⟨S7, .f32⟩
  | 54 => ⟨S7, .f32⟩
  | 55 => ⟨S7, .f32⟩
  | 56 => ⟨S7, .f32⟩
  | 57 => ⟨S_, .f32⟩
  | 58 => ⟨S7, .f32⟩
  | 59 => ⟨S7, .i1⟩
  | 60 => ⟨S7, .f32⟩
  | 61 => ⟨S_, .f32⟩
  | 62 => ⟨S7, .f32⟩
  | 63 => ⟨S7, .i1⟩
  | 64 => ⟨S1x7, .f32⟩
  | 65 => ⟨S16384x7, .f32⟩
  | 66 => ⟨S16384x7, .f32⟩
  | 67 => ⟨S16384x7, .f32⟩
  | 68 => ⟨S_, .f32⟩
  | 69 => ⟨S_, .f32⟩
  | 70 => ⟨S7, .f32⟩
  | 71 => ⟨S7, .f32⟩
  | 72 => ⟨S1x7, .f32⟩
  | 73 => ⟨S16384x7, .f32⟩
  | 74 => ⟨S16384x7, .f32⟩
  | 75 => ⟨S16384x7, .f32⟩
  | 76 => ⟨S16384x7, .f32⟩
  | 77 => ⟨S_, .f32⟩
  | 78 => ⟨S_, .f32⟩
  | 79 => ⟨S16384x7, .i1⟩
  | 80 => ⟨S16384x7, .f32⟩
  | 81 => ⟨S16384x7, .f32⟩
  | 82 => ⟨S1x7, .f32⟩
  | 83 => ⟨S16384x7, .f32⟩
  | 84 => ⟨S16384x7, .f32⟩
  | 85 => ⟨S16384x7, .f32⟩
  | 86 => ⟨S_, .f32⟩
  | 87 => ⟨S_, .f32⟩
  | 88 => ⟨S7, .f32⟩
  | 89 => ⟨S7, .f32⟩
  | 90 => ⟨S1x7, .f32⟩
  | 91 => ⟨S16384x7, .f32⟩
  | 92 => ⟨S16384x7, .f32⟩
  | 93 => ⟨S16384x7, .f32⟩
  | 94 => ⟨S16384x7, .f32⟩
  | 95 => ⟨S_, .f32⟩
  | 96 => ⟨S_, .f32⟩
  | 97 => ⟨S16384x7, .i1⟩
  | 98 => ⟨S16384x7, .f32⟩
  | 99 => ⟨S16384x7, .f32⟩
  | 100 => ⟨S16384x7, .f32⟩
  | 101 => ⟨S6, .f32⟩
  | 102 => ⟨S6, .f32⟩
  | 103 => ⟨S6, .f32⟩
  | 104 => ⟨S6, .f32⟩
  | 105 => ⟨S6, .f32⟩
  | 106 => ⟨S6, .f32⟩
  | 107 => ⟨S6, .f32⟩
  | 108 => ⟨S_, .f32⟩
  | 109 => ⟨S6, .f32⟩
  | 110 => ⟨S6, .i1⟩
  | 111 => ⟨S6, .f32⟩
  | 112 => ⟨S_, .f32⟩
  | 113 => ⟨S6, .f32⟩
  | 114 => ⟨S6, .i1⟩
  | 115 => ⟨S1x6, .f32⟩
  | 116 => ⟨S16384x6, .f32⟩
  | 117 => ⟨S16384x6, .f32⟩
  | 118 => ⟨S16384x6, .f32⟩
  | 119 => ⟨S_, .f32⟩
  | 120 => ⟨S_, .f32⟩
  | 121 => ⟨S6, .f32⟩
  | 122 => ⟨S6, .f32⟩
  | 123 => ⟨S1x6, .f32⟩
  | 124 => ⟨S16384x6, .f32⟩
  | 125 => ⟨S16384x6, .f32⟩
  | 126 => ⟨S16384x6, .f32⟩
  | 127 => ⟨S16384x6, .f32⟩
  | _ => ⟨S16384x4096, .f32⟩

abbrev hbmTy0_1 (i : Nat) : BufTy := match i % 128 with
  | 0 => ⟨S_, .f32⟩
  | 1 => ⟨S_, .f32⟩
  | 2 => ⟨S16384x6, .i1⟩
  | 3 => ⟨S16384x6, .f32⟩
  | 4 => ⟨S16384x6, .f32⟩
  | 5 => ⟨S1x6, .f32⟩
  | 6 => ⟨S16384x6, .f32⟩
  | 7 => ⟨S16384x6, .f32⟩
  | 8 => ⟨S16384x6, .f32⟩
  | 9 => ⟨S_, .f32⟩
  | 10 => ⟨S_, .f32⟩
  | 11 => ⟨S6, .f32⟩
  | 12 => ⟨S6, .f32⟩
  | 13 => ⟨S1x6, .f32⟩
  | 14 => ⟨S16384x6, .f32⟩
  | 15 => ⟨S16384x6, .f32⟩
  | 16 => ⟨S16384x6, .f32⟩
  | 17 => ⟨S16384x6, .f32⟩
  | 18 => ⟨S_, .f32⟩
  | 19 => ⟨S_, .f32⟩
  | 20 => ⟨S16384x6, .i1⟩
  | 21 => ⟨S16384x6, .f32⟩
  | 22 => ⟨S16384x6, .f32⟩
  | 23 => ⟨S16384x6, .f32⟩
  | 24 => ⟨S5, .f32⟩
  | 25 => ⟨S5, .f32⟩
  | 26 => ⟨S5, .f32⟩
  | 27 => ⟨S5, .f32⟩
  | 28 => ⟨S5, .f32⟩
  | 29 => ⟨S5, .f32⟩
  | 30 => ⟨S5, .f32⟩
  | 31 => ⟨S_, .f32⟩
  | 32 => ⟨S5, .f32⟩
  | 33 => ⟨S5, .i1⟩
  | 34 => ⟨S5, .f32⟩
  | 35 => ⟨S_, .f32⟩
  | 36 => ⟨S5, .f32⟩
  | 37 => ⟨S5, .i1⟩
  | 38 => ⟨S1x5, .f32⟩
  | 39 => ⟨S16384x5, .f32⟩
  | 40 => ⟨S16384x5, .f32⟩
  | 41 => ⟨S16384x5, .f32⟩
  | 42 => ⟨S_, .f32⟩
  | 43 => ⟨S_, .f32⟩
  | 44 => ⟨S5, .f32⟩
  | 45 => ⟨S5, .f32⟩
  | 46 => ⟨S1x5, .f32⟩
  | 47 => ⟨S16384x5, .f32⟩
  | 48 => ⟨S16384x5, .f32⟩
  | 49 => ⟨S16384x5, .f32⟩
  | 50 => ⟨S16384x5, .f32⟩
  | 51 => ⟨S_, .f32⟩
  | 52 => ⟨S_, .f32⟩
  | 53 => ⟨S16384x5, .i1⟩
  | 54 => ⟨S16384x5, .f32⟩
  | 55 => ⟨S16384x5, .f32⟩
  | 56 => ⟨S1x5, .f32⟩
  | 57 => ⟨S16384x5, .f32⟩
  | 58 => ⟨S16384x5, .f32⟩
  | 59 => ⟨S16384x5, .f32⟩
  | 60 => ⟨S_, .f32⟩
  | 61 => ⟨S_, .f32⟩
  | 62 => ⟨S5, .f32⟩
  | 63 => ⟨S5, .f32⟩
  | 64 => ⟨S1x5, .f32⟩
  | 65 => ⟨S16384x5, .f32⟩
  | 66 => ⟨S16384x5, .f32⟩
  | 67 => ⟨S16384x5, .f32⟩
  | 68 => ⟨S16384x5, .f32⟩
  | 69 => ⟨S_, .f32⟩
  | 70 => ⟨S_, .f32⟩
  | 71 => ⟨S16384x5, .i1⟩
  | 72 => ⟨S16384x5, .f32⟩
  | 73 => ⟨S16384x5, .f32⟩
  | 74 => ⟨S16384x5, .f32⟩
  | 75 => ⟨S5x4096, .f32⟩
  | 76 => ⟨S16384x4096, .f32⟩
  | 77 => ⟨S1x4096, .f32⟩
  | 78 => ⟨S16384x4096, .f32⟩
  | 79 => ⟨S16384x4096, .f32⟩
  | 80 => ⟨S5x4096, .f32⟩
  | 81 => ⟨S16384x4096, .f32⟩
  | 82 => ⟨S1x4096, .f32⟩
  | 83 => ⟨S16384x4096, .f32⟩
  | 84 => ⟨S16384x4096, .f32⟩
  | 85 => ⟨S16384x4096, .f32⟩
  | 86 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_call4_v0 : Ref sig .tc := ⟨.hbm, 87, rfl⟩
abbrev main_call4_v1 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_14 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_15 : Ref sig .tc := ⟨.hbm, 119, rfl⟩
abbrev main_call6_v0 : Ref sig .tc := ⟨.hbm, 120, rfl⟩
abbrev main_call6_v1 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_16 : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_17 : Ref sig .tc := ⟨.hbm, 137, rfl⟩
abbrev main_call8_v0 : Ref sig .tc := ⟨.hbm, 138, rfl⟩
abbrev main_call8_v1 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_18 : Ref sig .tc := ⟨.hbm, 146, rfl⟩
abbrev main_call9_v0 : Ref sig .tc := ⟨.hbm, 147, rfl⟩
abbrev main_call9_v1 : Ref sig .tc := ⟨.hbm, 148, rfl⟩
abbrev main_call9_v2 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_19 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_20 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_21 : Ref sig .tc := ⟨.hbm, 170, rfl⟩
abbrev main_call10_v0 : Ref sig .tc := ⟨.hbm, 171, rfl⟩
abbrev main_call10_v1 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_22 : Ref sig .tc := ⟨.hbm, 179, rfl⟩
abbrev main_call11_v0 : Ref sig .tc := ⟨.hbm, 180, rfl⟩
abbrev main_call11_v1 : Ref sig .tc := ⟨.hbm, 181, rfl⟩
abbrev main_call11_v2 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_23 : Ref sig .tc := ⟨.hbm, 188, rfl⟩
abbrev main_call12_v0 : Ref sig .tc := ⟨.hbm, 189, rfl⟩
abbrev main_call12_v1 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_24 : Ref sig .tc := ⟨.hbm, 197, rfl⟩
abbrev main_call13_v0 : Ref sig .tc := ⟨.hbm, 198, rfl⟩
abbrev main_call13_v1 : Ref sig .tc := ⟨.hbm, 199, rfl⟩
abbrev main_call13_v2 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S9_S8_0 : S9.Slices ![0] S8
  bcast_S8_S1x8_1 : S8.BroadcastsInDim S1x8 (![1] : Fin 1 → Fin S1x8.rank)
  slices_S9_S8_1 : S9.Slices ![1] S8
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  bcast_S_S1x8 : S_.BroadcastsInDim S1x8 (![] : Fin 0 → Fin S1x8.rank)
  slices_S9_S7_0 : S9.Slices ![0] S7
  slices_S9_S7_1 : S9.Slices ![1] S7
  slices_S9_S7_2 : S9.Slices ![2] S7
  bcast_S_S7 : S_.BroadcastsInDim S7 (![] : Fin 0 → Fin S7.rank)
  bcast_S7_S1x7_1 : S7.BroadcastsInDim S1x7 (![1] : Fin 1 → Fin S1x7.rank)
  bcast_S16384x1_S16384x7_0_1 : S16384x1.BroadcastsInDim S16384x7 (![0, 1] : Fin 2 → Fin S16384x7.rank)
  bcast_S1x7_S16384x7_0_1 : S1x7.BroadcastsInDim S16384x7 (![0, 1] : Fin 2 → Fin S16384x7.rank)
  slices_S16384x8_S16384x7_0_0 : S16384x8.Slices ![0, 0] S16384x7
  bcast_S7_S16384x7_1 : S7.BroadcastsInDim S16384x7 (![1] : Fin 1 → Fin S16384x7.rank)
  bcast_S_S16384x7 : S_.BroadcastsInDim S16384x7 (![] : Fin 0 → Fin S16384x7.rank)
  slices_S16384x8_S16384x7_0_1 : S16384x8.Slices ![0, 1] S16384x7
  slices_S9_S6_0 : S9.Slices ![0] S6
  slices_S9_S6_2 : S9.Slices ![2] S6
  slices_S9_S6_1 : S9.Slices ![1] S6
  slices_S9_S6_3 : S9.Slices ![3] S6
  bcast_S_S6 : S_.BroadcastsInDim S6 (![] : Fin 0 → Fin S6.rank)
  bcast_S6_S1x6_1 : S6.BroadcastsInDim S1x6 (![1] : Fin 1 → Fin S1x6.rank)
  bcast_S16384x1_S16384x6_0_1 : S16384x1.BroadcastsInDim S16384x6 (![0, 1] : Fin 2 → Fin S16384x6.rank)
  bcast_S1x6_S16384x6_0_1 : S1x6.BroadcastsInDim S16384x6 (![0, 1] : Fin 2 → Fin S16384x6.rank)
  slices_S16384x7_S16384x6_0_0 : S16384x7.Slices ![0, 0] S16384x6
  bcast_S6_S16384x6_1 : S6.BroadcastsInDim S16384x6 (![1] : Fin 1 → Fin S16384x6.rank)
  bcast_S_S16384x6 : S_.BroadcastsInDim S16384x6 (![] : Fin 0 → Fin S16384x6.rank)
  slices_S16384x7_S16384x6_0_1 : S16384x7.Slices ![0, 1] S16384x6
  slices_S9_S5_0 : S9.Slices ![0] S5
  slices_S9_S5_3 : S9.Slices ![3] S5
  slices_S9_S5_1 : S9.Slices ![1] S5
  slices_S9_S5_4 : S9.Slices ![4] S5
  bcast_S_S5 : S_.BroadcastsInDim S5 (![] : Fin 0 → Fin S5.rank)
  bcast_S5_S1x5_1 : S5.BroadcastsInDim S1x5 (![1] : Fin 1 → Fin S1x5.rank)
  bcast_S16384x1_S16384x5_0_1 : S16384x1.BroadcastsInDim S16384x5 (![0, 1] : Fin 2 → Fin S16384x5.rank)
  bcast_S1x5_S16384x5_0_1 : S1x5.BroadcastsInDim S16384x5 (![0, 1] : Fin 2 → Fin S16384x5.rank)
  slices_S16384x6_S16384x5_0_0 : S16384x6.Slices ![0, 0] S16384x5
  bcast_S5_S16384x5_1 : S5.BroadcastsInDim S16384x5 (![1] : Fin 1 → Fin S16384x5.rank)
  bcast_S_S16384x5 : S_.BroadcastsInDim S16384x5 (![] : Fin 0 → Fin S16384x5.rank)
  slices_S16384x6_S16384x5_0_1 : S16384x6.Slices ![0, 1] S16384x5
  transposes_S4096x5_S5x4096_1_0 : S4096x5.Transposes [1, 0] S5x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x5_S5x4096_S16384x4096_1_0_0_1_n_n_wf : DotDims.WF S16384x5 S5x4096 S16384x4096 [1] [0] [0] [1] [] []

variable [Facts₀]

def dot_S16384x5_S5x4096_S16384x4096_1_0_0_1_n_n : DotDims S16384x5 S5x4096 S16384x4096 where
  lhsContracting := [1]
  rhsContracting := [0]
  lhsNonContracting := [0]
  rhsNonContracting := [1]
  lhsBatch := []
  rhsBatch := []
  wf := dot_S16384x5_S5x4096_S16384x4096_1_0_0_1_n_n_wf

class Facts : Prop extends Facts₀ where

variable [Facts]
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«101300_j28544352649526_2_alg».proof.Proof.LibPlainDot
import proofs.«101300_j28544352649526_2_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.KernelEntry.lean ====
/-
  The kernel body's arithmetic on one block of 512 rows, read at an entry.

  The body multiplies its block of the basis phi [512, 5] by the transposed weights Wa^T and Wb^T [5, 4096] (plain
  products into a zero accumulator), adds the bias rows ca and cb [1, 4096] repeated down the 512 rows, and forms
  a · x + b with its block of x.  On the extended reals the entry (p, q) of what it stores is

      ((sum over k of phi (p, k) · Wa^T (k, q)) + ca (0, q)) · x (p, q) + ((sum over k of phi (p, k) · Wb^T (k, q)) + cb (0, q)):

  it reads row p of the basis block and of the x block only.
-/
import proofs.«101300_j28544352649526_2_alg».proof.Proof.Gen.KernelIdeal.Skeleton
import proofs.«101300_j28544352649526_2_alg».proof.Proof.LibPlainDot
import proofs.«101300_j28544352649526_2_alg».proof.Proof.LibDenseBias

noncomputable section

namespace Cert.KernelIdeal.Closed

open Cert.KernelIdeal Cert.KernelIdeal.Gen Idealize.ShloMosaic Idealize.ShloMosaic.ValueIdx

/-- The body's two products contract the columns of the left factor against the rows of the right factor, no batch axis. -/
theorem dims_plain : dot_S512x5_S5x4096_S512x4096_1_0_0_1_n_n = DotDims.plain 512 5 4096 := rfl

/-- The stored block at (p, q): the two coefficients from row p of the basis block, applied to x (p, q). -/
theorem block_entry (v0 : Vec Ideal S512x5 .f32) (v2 v4 : Vec Ideal S5x4096 .f32) (v6 v8 : Vec Ideal S1x4096 .f32)
    (v16 : Vec Ideal S512x4096 .f32) (p : Fin 512) (q : Fin 4096) :
    k0_pay1 (F := Ideal) v0 v2 v4 v6 v8 v16 (ix2 p q)
      = ((∑ k : Fin 5, v0 (ix2 p k) * v2 (ix2 k q)) + v6 (ix2 (0 : Fin 1) q)) * v16 (ix2 p q)
        + ((∑ k : Fin 5, v0 (ix2 p k) * v4 (ix2 k q)) + v8 (ix2 (0 : Fin 1) q)) := by
  unfold k0_pay1
  rw [addf_apply, mulf_apply, addf_apply, addf_apply]
  simp only [shapeCast_self]
  rw [dims_plain, Cert.PlainDot.matmul_zero_plain_apply, Cert.PlainDot.matmul_zero_plain_apply,
    Cert.Lib.DenseBias.row_down_entry, Cert.Lib.DenseBias.row_down_entry]

end Cert.KernelIdeal.Closed

end
-- ==== Proof.AffineSpec.lean ====
/-
  The function both programs compute, entry by entry on the extended reals.

  A basis matrix phi [16384, 5] (five spline basis values per row, computed from theta), two weight matrices
  Wa, Wb [4096, 5] and two bias vectors ca, cb [4096] give, for every row p and column q, the coefficients

      a (p, q) = (sum over k of phi (p, k) · Wa (q, k)) + ca q        b (p, q) = (sum over k of phi (p, k) · Wb (q, k)) + cb q

  and the result is the affine map of x with these coefficients:  out (p, q) = a (p, q) · x (p, q) + b (p, q).
  Nothing here needs the entries to be finite: the two programs form the same sums, products and additions in the same
  order, so they agree on every extended real.
-/
import Idealize.ShloMosaic.PureOps.Ideal
import Idealize.ShloMosaic.Lib.ValueIdx

noncomputable section

namespace Cert.SplineAffine

open Idealize.ShloMosaic Idealize.ShloMosaic.ValueIdx

/-- The coefficient a (p, q) (or b (p, q)): row p of the basis against row q of the weights, plus the bias at q. -/
def coeff (phi : FVec Ideal ⟨2, ![16384, 5]⟩ .f32) (W : FVec Ideal ⟨2, ![4096, 5]⟩ .f32) (c : FVec Ideal ⟨1, ![4096]⟩ .f32)
    (p : Fin 16384) (q : Fin 4096) : EReal :=
  (∑ k : Fin 5, phi (ix2 p k) * W (ix2 q k)) + c (ix1 q)

/-- The result at row p, column q: a (p, q) · x (p, q) + b (p, q). -/
def entry (x : FVec Ideal ⟨2, ![16384, 4096]⟩ .f32) (phi : FVec Ideal ⟨2, ![16384, 5]⟩ .f32)
    (Wa : FVec Ideal ⟨2, ![4096, 5]⟩ .f32) (ca : FVec Ideal ⟨1, ![4096]⟩ .f32)
    (Wb : FVec Ideal ⟨2, ![4096, 5]⟩ .f32) (cb : FVec Ideal ⟨1, ![4096]⟩ .f32) (p : Fin 16384) (q : Fin 4096) : EReal :=
  coeff phi Wa ca p q * x (ix2 p q) + coeff phi Wb cb p q

/-- The whole result array. -/
def out (x : FVec Ideal ⟨2, ![16384, 4096]⟩ .f32) (phi : FVec Ideal ⟨2, ![16384, 5]⟩ .f32)
    (Wa : FVec Ideal ⟨2, ![4096, 5]⟩ .f32) (ca : FVec Ideal ⟨1, ![4096]⟩ .f32)
    (Wb : FVec Ideal ⟨2, ![4096, 5]⟩ .f32) (cb : FVec Ideal ⟨1, ![4096]⟩ .f32) : FVec Ideal ⟨2, ![16384, 4096]⟩ .f32 :=
  fun i => entry x phi Wa ca Wb cb (i 0) (i 1)

/-- The result array read at row p, column q. -/
theorem out_apply (x : FVec Ideal ⟨2, ![16384, 4096]⟩ .f32) (phi : FVec Ideal ⟨2, ![16384, 5]⟩ .f32)
    (Wa : FVec Ideal ⟨2, ![4096, 5]⟩ .f32) (ca : FVec Ideal ⟨1, ![4096]⟩ .f32)
    (Wb : FVec Ideal ⟨2, ![4096, 5]⟩ .f32) (cb : FVec Ideal ⟨1, ![4096]⟩ .f32) (p : Fin 16384) (q : Fin 4096) :
    out x phi Wa ca Wb cb (ix2 p q) = entry x phi Wa ca Wb cb p q := rfl

/-- An array whose every entry (p, q) is the specified one is the result array. -/
theorem eq_out (x : FVec Ideal ⟨2, ![16384, 4096]⟩ .f32) (phi : FVec Ideal ⟨2, ![16384, 5]⟩ .f32)
    (Wa : FVec Ideal ⟨2, ![4096, 5]⟩ .f32) (ca : FVec Ideal ⟨1, ![4096]⟩ .f32)
    (Wb : FVec Ideal ⟨2, ![4096, 5]⟩ .f32) (cb : FVec Ideal ⟨1, ![4096]⟩ .f32)
    (y : FVec Ideal ⟨2, ![16384, 4096]⟩ .f32)
    (h : ∀ (p : Fin 16384) (q : Fin 4096), y (ix2 p q) = entry x phi Wa ca Wb cb p q) :
    y = out x phi Wa ca Wb cb := by
  funext i
  rw [eq_ix2 i]
  exact h (i 0) (i 1)

end Cert.SplineAffine

end
-- ==== Proof.KernelPoint.lean ====
/-
  One grid point's stored block against the specification, entry by entry.

  If the body's six loaded blocks are what the tiling says they are — the x block and the basis block hold row P of
  their arrays in their row p, the two weight blocks are the weights transposed, the two bias rows are the biases — then
  the stored block's entry (p, q) is the specified result at (P, q).  Stated over arbitrary blocks with those
  hypotheses, so that nothing here knows how the blocks are cut from the arrays.
-/
import proofs.«101300_j28544352649526_2_alg».proof.Proof.KernelEntry
import proofs.«101300_j28544352649526_2_alg».proof.Proof.AffineSpec

noncomputable section

namespace Cert.KernelIdeal.Closed

open Cert.KernelIdeal Cert.KernelIdeal.Gen Idealize.ShloMosaic Idealize.ShloMosaic.ValueIdx

/-- The stored block at (p, q) is the specified result at (P, q) when row p of the x and basis blocks is row P of the
    arrays and the small operands are the transposed weights and the bias rows. -/
theorem point_entry (x : FVec Ideal ⟨2, ![16384, 4096]⟩ .f32) (phi : FVec Ideal ⟨2, ![16384, 5]⟩ .f32)
    (Wa : FVec Ideal ⟨2, ![4096, 5]⟩ .f32) (ca : FVec Ideal ⟨1, ![4096]⟩ .f32)
    (Wb : FVec Ideal ⟨2, ![4096, 5]⟩ .f32) (cb : FVec Ideal ⟨1, ![4096]⟩ .f32)
    (b0 : Vec Ideal S512x4096 .f32) (b1 : Vec Ideal S512x5 .f32) (b2 b4 : Vec Ideal S5x4096 .f32)
    (b3 b5 : Vec Ideal S1x4096 .f32) (P : Fin 16384) (p : Fin 512) (q : Fin 4096)
    (h0 : b0 (ix2 p q) = x (ix2 P q))
    (h1 : ∀ k : Fin 5, b1 (ix2 p k) = phi (ix2 P k))
    (h2 : ∀ k : Fin 5, b2 (ix2 k q) = Wa (ix2 q k))
    (h3 : b3 (ix2 (0 : Fin 1) q) = ca (ix1 q))
    (h4 : ∀ k : Fin 5, b4 (ix2 k q) = Wb (ix2 q k))
    (h5 : b5 (ix2 (0 : Fin 1) q) = cb (ix1 q)) :
    k0_pay1 (F := Ideal) b1 b2 b4 b3 b5 b0 (ix2 p q) = Cert.SplineAffine.entry x phi Wa ca Wb cb P q := by
  rw [block_entry, h0, h3, h5]
  simp only [h1, h2, h4]
  rfl

end Cert.KernelIdeal.Closed

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.KernelOperands.lean ====
/-
  The four small operand arrays the host lays out for the kernel, read at an entry.

  Before the launch the host program transposes the two weight matrices [4096, 5] to [5, 4096] and lays the two bias
  vectors [4096] as one-row matrices [1, 4096]; these are its last operations before the launch, after the long
  computation of the basis.  So the transposed weights at (k, q) are the weights at (q, k), and the bias row at (0, q) is
  the bias at q.  The buffer contents at the launch are a fold over all the host operations; it is run up to the last
  stretch as one unopened valuation and only the last stretch is opened: the arguments it reads are written by nothing.
-/
import proofs.«101300_j28544352649526_2_alg».proof.Proof.Gen.KernelIdeal.Frame
import proofs.«101300_j28544352649526_2_alg».proof.Proof.LibRunPieces
import Idealize.ShloMosaic.Lib.ValueIdx
import Idealize.ShloMosaic.Lib.ValueLayout

noncomputable section

namespace Cert.KernelIdeal.Closed

open Cert.KernelIdeal Cert.KernelIdeal.Gen Idealize.ShloMosaic Idealize.ShloMosaic.TcCoe Idealize.ShloMosaic.ValueIdx
open Idealize.ShloMosaic.StableHlo (after)

variable (m : (ℓ : Loc nD τ sig) → Buf (Elt Ideal) ℓ)

/-- Core c's buffers after every host operation but the last stretch (the basis computed, the four operand arrays not
    yet laid out). -/
def beforeLayout (c : Dev nD) : Valuation τ sig (Elt Ideal) :=
  after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) (fun b => m (c, b))

/-- The contents at the launch are the last stretch run from there. -/
theorem V_eq_last (c : Dev nD) (b : Ref sig .tc) :
    V m c b = after hostOps0_28 (beforeLayout m c) (Proc.devRef .tc b) := by
  unfold beforeLayout
  rw [← Cert.Lib.RunPieces.after_append]
  show after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27] ++ [hostOps0_28])) _ _ = _
  rw [List.flatten_append, List.flatten_singleton]

/-- The last stretch, from any contents W: the two transposes and the two one-row layouts it writes. -/
theorem last_writes (W : Valuation τ sig (Elt Ideal)) :
    (after hostOps0_28 W (Proc.devRef .tc main_v131) : S5x4096.Idx → EReal)
        = transpose S5x4096 [1, 0] (W (Proc.devRef .tc main_arg2)) transposes_S4096x5_S5x4096_1_0
    ∧ (after hostOps0_28 W (Proc.devRef .tc main_v132) : S5x4096.Idx → EReal)
        = transpose S5x4096 [1, 0] (W (Proc.devRef .tc main_arg4)) transposes_S4096x5_S5x4096_1_0
    ∧ (after hostOps0_28 W (Proc.devRef .tc main_v133) : S1x4096.Idx → EReal)
        = shapeCast S1x4096 (W (Proc.devRef .tc main_arg3)) shapeCasts_S4096_S1x4096
    ∧ (after hostOps0_28 W (Proc.devRef .tc main_v134) : S1x4096.Idx → EReal)
        = shapeCast S1x4096 (W (Proc.devRef .tc main_arg5)) shapeCasts_S4096_S1x4096 := by
  refine ⟨?_, ?_, ?_, ?_⟩ <;> (dsimp only [hostOps0_28]; after_results; try rfl)

/-- The last stretch writes none of the four arguments it reads. -/
theorem last_keeps (W : Valuation τ sig (Elt Ideal)) :
    after hostOps0_28 W (Proc.devRef .tc main_arg2) = W (Proc.devRef .tc main_arg2)
    ∧ after hostOps0_28 W (Proc.devRef .tc main_arg3) = W (Proc.devRef .tc main_arg3)
    ∧ after hostOps0_28 W (Proc.devRef .tc main_arg4) = W (Proc.devRef .tc main_arg4)
    ∧ after hostOps0_28 W (Proc.devRef .tc main_arg5) = W (Proc.devRef .tc main_arg5) := by
  refine ⟨?_, ?_, ?_, ?_⟩ <;> (dsimp only [hostOps0_28]; after_results)

/-- Nothing before the last stretch writes the weights or the biases either. -/
theorem before_args (c : Dev nD) :
    beforeLayout m c (Proc.devRef .tc main_arg2) = m ((c : Thread nD τ).loc main_arg2)
    ∧ beforeLayout m c (Proc.devRef .tc main_arg3) = m ((c : Thread nD τ).loc main_arg3)
    ∧ beforeLayout m c (Proc.devRef .tc main_arg4) = m ((c : Thread nD τ).loc main_arg4)
    ∧ beforeLayout m c (Proc.devRef .tc main_arg5) = m ((c : Thread nD τ).loc main_arg5) := by
  obtain ⟨k2, k3, k4, k5⟩ := last_keeps (beforeLayout m c)
  exact ⟨k2.symm.trans ((V_eq_last m c main_arg2).symm.trans (V_main_arg2 m c)),
    k3.symm.trans ((V_eq_last m c main_arg3).symm.trans (V_main_arg3 m c)),
    k4.symm.trans ((V_eq_last m c main_arg4).symm.trans (V_main_arg4 m c)),
    k5.symm.trans ((V_eq_last m c main_arg5).symm.trans (V_main_arg5 m c))⟩

/-- The transposed first weights at (k, q) are the first weights at (q, k). -/
theorem wa_entry (c : Dev nD) (k : Fin 5) (q : Fin 4096) :
    (V m c main_v131 : S5x4096.Idx → EReal) (ix2 k q)
      = (m ((c : Thread nD τ).loc main_arg2) : S4096x5.Idx → EReal) (ix2 q k) := by
  rw [V_eq_last, (last_writes (beforeLayout m c)).1, (before_args m c).1, transpose_ix2_apply]

/-- The transposed second weights at (k, q) are the second weights at (q, k). -/
theorem wb_entry (c : Dev nD) (k : Fin 5) (q : Fin 4096) :
    (V m c main_v132 : S5x4096.Idx → EReal) (ix2 k q)
      = (m ((c : Thread nD τ).loc main_arg4) : S4096x5.Idx → EReal) (ix2 q k) := by
  rw [V_eq_last, (last_writes (beforeLayout m c)).2.1, (before_args m c).2.2.1, transpose_ix2_apply]

/-- The first bias row at (0, q) is the first bias at q. -/
theorem ca_entry (c : Dev nD) (u : Fin 1) (q : Fin 4096) :
    (V m c main_v133 : S1x4096.Idx → EReal) (ix2 u q)
      = (m ((c : Thread nD τ).loc main_arg3) : S4096.Idx → EReal) (ix1 q) := by
  rw [V_eq_last, (last_writes (beforeLayout m c)).2.2.1, (before_args m c).2.1, shapeCast_a_1a_apply]

/-- The second bias row at (0, q) is the second bias at q. -/
theorem cb_entry (c : Dev nD) (u : Fin 1) (q : Fin 4096) :
    (V m c main_v134 : S1x4096.Idx → EReal) (ix2 u q)
      = (m ((c : Thread nD τ).loc main_arg5) : S4096.Idx → EReal) (ix1 q) := by
  rw [V_eq_last, (last_writes (beforeLayout m c)).2.2.2, (before_args m c).2.2.2, shapeCast_a_1a_apply]

end Cert.KernelIdeal.Closed

end
-- ==== Proof.KernelTiles.lean ====
/-
  What each operand window's block holds at a grid point, entry by entry.

  The grid has 32 points; point t works on rows 512 t … 512 t + 511.  The blocks of x and of the basis at point t are
  those rows of their arrays: the block's entry (p, ·) is the array's entry (512 t + p, ·).  The other four windows are
  whole arrays at every point (block index (0, 0)): the transposed weights and the bias rows the host laid out, so their
  entries are the weights' and the biases' own.  The block indices are the printed index maps, decided once over the 32
  points; a block's element sits in its array at block index × block size + its coordinate inside the block.
-/
import proofs.«101300_j28544352649526_2_alg».proof.Proof.Gen.KernelIdeal.Frame
import proofs.«101300_j28544352649526_2_alg».proof.Proof.KernelOperands

noncomputable section

namespace Cert.KernelIdeal.Closed

open Cert.KernelIdeal Cert.KernelIdeal.Gen Idealize.ShloMosaic Idealize.ShloMosaic.TcCoe Idealize.ShloMosaic.ValueIdx

variable (m : (ℓ : Loc nD τ sig) → Buf (Elt Ideal) ℓ)

/-- The printed index maps over the grid: x, the basis and the result move one row block per point; the four small
    operands stay at block (0, 0). -/
theorem tile_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The x block at point t: its entry (p, q) is x (512 t + p, q). -/
theorem x_block (c : Dev nD) (t : Fin cfg0.N) (p : Fin 512) (q : Fin 4096) (P : Fin 16384)
    (hP : P.val = t.val * 512 + p.val) :
    (iblk m c 0 t : Vec Ideal S512x4096 .f32) (ix2 p q)
      = (m ((c : Thread nD τ).loc main_arg0) : S16384x4096.Idx → EReal) (ix2 P q) := by
  obtain ⟨⟨e0, e1⟩, -⟩ := tile_index t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = P.val; omega
  | ⟨1, _⟩ => show win0_0.index t (1 : Fin 2) * 4096 + 1 * q.val = q.val; omega

/-- The basis block at point t: its entry (p, k) is the basis at (512 t + p, k). -/
theorem phi_block (c : Dev nD) (t : Fin cfg0.N) (p : Fin 512) (k : Fin 5) (P : Fin 16384)
    (hP : P.val = t.val * 512 + p.val) :
    (iblk m c 1 t : Vec Ideal S512x5 .f32) (ix2 p k) = (V m c main_v130 : S16384x5.Idx → EReal) (ix2 P k) := by
  obtain ⟨-, ⟨e0, e1⟩, -⟩ := tile_index t
  unfold iblk
  rw [View.read_apply]
  show V m c main_v130 _ = _
  refine congrArg _ (funext fun a => Fin.ext ?_)
  match a with
  | ⟨0, _⟩ => show win0_1.index t (0 : Fin 2) * 512 + 1 * p.val = P.val; omega
  | ⟨1, _⟩ => show win0_1.index t (1 : Fin 2) * 5 + 1 * k.val = k.val; omega

/-- The first weight block at any point is the first weights transposed. -/
theorem wa_block (c : Dev nD) (t : Fin cfg0.N) (k : Fin 5) (q : Fin 4096) :
    (iblk m c 2 t : Vec Ideal S5x4096 .f32) (ix2 k q)
      = (m ((c : Thread nD τ).loc main_arg2) : S4096x5.Idx → EReal) (ix2 q k) := by
  obtain ⟨-, -, ⟨e0, e1⟩, -⟩ := tile_index t
  rw [← wa_entry m c k q]
  unfold iblk
  rw [View.read_apply]
  show V m c main_v131 _ = _
  refine congrArg _ (funext fun a => Fin.ext ?_)
  match a with
  | ⟨0, _⟩ => show win0_2.index t (0 : Fin 2) * 5 + 1 * k.val = k.val; omega
  | ⟨1, _⟩ => show win0_2.index t (1 : Fin 2) * 4096 + 1 * q.val = q.val; omega

/-- The first bias block at any point is the first bias as a row. -/
theorem ca_block (c : Dev nD) (t : Fin cfg0.N) (q : Fin 4096) :
    (iblk m c 3 t : Vec Ideal S1x4096 .f32) (ix2 (0 : Fin 1) q)
      = (m ((c : Thread nD τ).loc main_arg3) : S4096.Idx → EReal) (ix1 q) := by
  obtain ⟨-, -, -, ⟨e0, e1⟩, -⟩ := tile_index t
  rw [← ca_entry m c (0 : Fin 1) q]
  unfold iblk
  rw [View.read_apply]
  show V m c main_v133 _ = _
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * q.val = q.val; omega

/-- The second weight block at any point is the second weights transposed. -/
theorem wb_block (c : Dev nD) (t : Fin cfg0.N) (k : Fin 5) (q : Fin 4096) :
    (iblk m c 4 t : Vec Ideal S5x4096 .f32) (ix2 k q)
      = (m ((c : Thread nD τ).loc main_arg4) : S4096x5.Idx → EReal) (ix2 q k) := by
  obtain ⟨-, -, -, -, ⟨e0, e1⟩, -⟩ := tile_index t
  rw [← wb_entry m c k q]
  unfold iblk
  rw [View.read_apply]
  show V m c main_v132 _ = _
  refine congrArg _ (funext fun a => Fin.ext ?_)
  match a with
  | ⟨0, _⟩ => show win0_4.index t (0 : Fin 2) * 5 + 1 * k.val = k.val; omega
  | ⟨1, _⟩ => show win0_4.index t (1 : Fin 2) * 4096 + 1 * q.val = q.val; omega

/-- The second bias block at any point is the second bias as a row. -/
theorem cb_block (c : Dev nD) (t : Fin cfg0.N) (q : Fin 4096) :
    (iblk m c 5 t : Vec Ideal S1x4096 .f32) (ix2 (0 : Fin 1) q)
      = (m ((c : Thread nD τ).loc main_arg5) : S4096.Idx → EReal) (ix1 q) := by
  obtain ⟨-, -, -, -, -, ⟨e0, e1⟩, -⟩ := tile_index t
  rw [← cb_entry m c (0 : Fin 1) q]
  unfold iblk
  rw [View.read_apply]
  show V m c main_v134 _ = _
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * q.val = q.val; omega

end Cert.KernelIdeal.Closed

end
-- ==== Proof.KernelClosed.lean ====
/-
  The kernel's result array as one function of the arrays it is given.

  Grid point t stores, for rows 512 t … 512 t + 511, the specified result a · x + b of those rows (the block entries are
  the arrays' entries, KernelTiles; the body's arithmetic on them is the specification's, KernelPoint), and writes the
  block back to those rows of the result array.  The 32 blocks cover all 16384 rows — row r lies in the block of point
  r / 512 — so after the run the result array is the specified array, and the argument arrays are as launched.
-/
import proofs.«101300_j28544352649526_2_alg».proof.Proof.Gen.KernelIdeal.Value
import proofs.«101300_j28544352649526_2_alg».proof.Proof.KernelPoint
import proofs.«101300_j28544352649526_2_alg».proof.Proof.KernelTiles

noncomputable section

namespace Cert.KernelIdeal.Closed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store are through whole-block rectangles at offset (0, 0). -/
theorem zero_offsets : (![0, 0] : Fin 2 → Nat) = fun _ => 0 := funext fun a => by fin_cases a <;> rfl

/-- The specified result array of core c's arrays: x, the basis as the region finds it, the weights and the biases. -/
abbrev spec (c : Dev nD) : FVec Ideal ⟨2, ![16384, 4096]⟩ .f32 :=
  Cert.SplineAffine.out (m ((c : Thread nD τ).loc main_arg0)) (V m c main_v130) (m ((c : Thread nD τ).loc main_arg2))
    (m ((c : Thread nD τ).loc main_arg3)) (m ((c : Thread nD τ).loc main_arg4)) (m ((c : Thread nD τ).loc main_arg5))

/-- What point t writes back is rows 512 t … 512 t + 511 of the specified result. -/
theorem flushed_eq (c : Dev nD) (t : Fin cfg0.N) :
    (dats m 0 c).flushed 6 t = ((cfg0.win 6).blk t).view.read (Elt Ideal) (spec m c) := by
  rw [Value.flushed6]
  unfold out0_6
  rw [View.canon_unit_zero zero_offsets]
  simp only [View.ld_unit_zero (S := S512x4096) zero_offsets, View.ld_unit_zero (S := S512x5) zero_offsets,
    View.ld_unit_zero (S := S5x4096) zero_offsets, View.ld_unit_zero (S := S1x4096) zero_offsets]
  obtain ⟨-, -, -, -, -, -, ⟨e0, e1⟩⟩ := tile_index t
  have hN : t.val < 32 := t.isLt.trans_eq N_0
  refine funext fun (j : S512x4096.Idx) => ?_
  obtain ⟨p, q, rfl⟩ : ∃ (p : Fin 512) (q : Fin 4096), j = ix2 p q := ⟨j 0, j 1, eq_ix2 j⟩
  have hp : p.val < 512 := p.isLt
  rw [View.read_apply]
  show k0_pay1 (F := Ideal) (iblk m c 1 t) (iblk m c 2 t) (iblk m c 4 t) (iblk m c 3 t) (iblk m c 5 t) (iblk m c 0 t)
      ((cfg0.win 6).xinj (grid0.coords t) (ix2 p q)) = spec m c (((cfg0.win 6).blk t).view.emb (ix2 p q))
  have hx : (cfg0.win 6).xinj (grid0.coords t) (ix2 p q) = (ix2 p q : S512x4096.Idx) :=
    funext fun a => Fin.ext (by match a with | ⟨0, _⟩ => rfl | ⟨1, _⟩ => rfl)
  have he : ((cfg0.win 6).blk t).view.emb (ix2 p q)
      = (ix2 (⟨t.val * 512 + p.val, by omega⟩ : Fin 16384) q : S16384x4096.Idx) :=
    funext fun a => Fin.ext (by
      match a with
      | ⟨0, _⟩ => show win0_6.index t (0 : Fin 2) * 512 + 1 * p.val = t.val * 512 + p.val; omega
      | ⟨1, _⟩ => show win0_6.index t (1 : Fin 2) * 4096 + 1 * q.val = q.val; omega)
  rw [hx, he]
  exact (point_entry _ _ _ _ _ _ _ _ _ _ _ _ _ p q (x_block m c t p q _ rfl) (fun k => phi_block m c t p k _ rfl)
    (fun k => wa_block m c t k q) (ca_block m c t q) (fun k => wb_block m c t k q) (cb_block m c t q)).trans
    (Cert.SplineAffine.out_apply _ _ _ _ _ _ _ q).symm

/-- An index of the result array is in point t's block iff each coordinate is in the block's range on its axis. -/
theorem mem_tile (t : Fin cfg0.N) (i : S16384x4096.Idx) :
    i ∈ ((cfg0.win 6).blk t).view.set ↔ ∀ a : Fin 2, win0_6.index t a * S512x4096.size a ≤ (i a).val
      ∧ (i a).val < win0_6.index t a * S512x4096.size a + S512x4096.size a := by
  show i ∈ ((View.whole main_v135).slice (win0_6.rect t)).set ↔ _
  rw [View.set_slice_whole, Rect.mem_set_unit]
  exact Iff.rfl

/-- Every index of the result array is in some point's block: row r is in the block of point r / 512. -/
theorem covered (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 32 := N_0
  have ht : (i 0).val / 512 < cfg0.N := by rw [hN]; omega
  obtain ⟨-, -, -, -, -, -, ⟨e0, e1⟩⟩ := tile_index ⟨(i 0).val / 512, ht⟩
  refine ⟨⟨(i 0).val / 512, ht⟩, flush0_6 _, ?_⟩
  rw [mem_tile]
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, ht⟩ (1 : Fin 2) * 4096 ≤ (i 1).val
      ∧ (i 1).val < win0_6.index ⟨(i 0).val / 512, ht⟩ (1 : Fin 2) * 4096 + 4096
    rw [e1]; omega

/-- The result array after the run is the specified array. -/
theorem final (c : Dev nD) : (dats m 0 c).arrAt 6 cfg0.N = spec m c :=
  (dats m 0 c).arrAt_eq_of_cover 6 (spec m c) (fun t _ => flushed_eq m c t) covered

/-- The run, read: every weakly fair execution terminates with the result array at the specified array of the arrays as
    launched and the basis as the region finds it, and the arguments unchanged. -/
theorem run : θ_run (defs (F := Ideal)) (onTc (τ := τ) (main (F := Ideal))) ⟨m, fun _ => 0, ρ⟩ fun r => ∀ c : Dev nD,
      r.2.mem ((c : Thread nD τ).loc main_v135)
          = Cert.SplineAffine.out (m ((c : Thread nD τ).loc main_arg0)) (V m c main_v130) (m ((c : Thread nD τ).loc main_arg2))
              (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Closed

end
-- ==== Proof.RefLine.lean ====
/-
  The reference program's @main as a straight line of host operations, and its run.

  @main computes, from theta, the clipped parameter u, then the cubic B-spline basis of u over the clamped knot vector
  (0, 0, 0, 0, 1/2, 1, 1, 1, 1) by the Cox–de Boor recursion — degree 0 is the indicator of each of the eight knot spans,
  and each further degree combines two neighbouring functions of the degree below with the weights (u - t_i) / (t_(i+r) - t_i)
  and (t_(i+r+1) - u) / (t_(i+r+1) - t_(i+1)), a zero-width span contributing 0 —, and from the five basis values per row the
  two coefficient arrays and the affine map of x. The functions jax outlined (the two clips, the selections) are written
  out at their calls, over the buffers each call names. The list is cut into five stretches by what they compute; the
  first four are, operation for operation, what the kernel's program does before it launches its kernel.

  Every weakly fair execution of @main terminates with every buffer at the fold of these operations over the launch
  contents.
-/
import proofs.«101300_j28544352649526_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The parameter: theta less 0, over 1, clipped to [0, 1], flattened, clipped to [1e-6, 1 - 1e-6] (`%cst` … `%6`); the knot vector `%cst` is written here too. -/
abbrev uclip : List (HloOp τ sig (Elt F)) :=
  [ nullary main_cst (fun i => FloatOps.ofBits .f32 (lit0 (S9.rowMajor i))),
    nullary main_cst_0 (constant S_ .f32 0x00000000#32),
    unary main_cst_0 main_v0 (broadcastInDim S16384x1 ![] bcast_S_S16384x1 : (⟨S_, .f32⟩ : BufTy).Contents (Elt F) → (⟨S16384x1, .f32⟩ : BufTy).Contents (Elt F)),
    binary main_arg1 main_v0 main_v1 (subf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x3F800000#32),
    unary main_cst_1 main_v2 (broadcastInDim S16384x1 ![] bcast_S_S16384x1 : (⟨S_, .f32⟩ : BufTy).Contents (Elt F) → (⟨S16384x1, .f32⟩ : BufTy).Contents (Elt F)),
    binary main_v1 main_v2 main_v3 (Host.divf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x00000000#32),
    nullary main_cst_3 (constant S_ .f32 0x3F800000#32),
    TRef.unary (.of main_cst_2 : StableHlo.TRef sig ⟨S_, .f32⟩) main_call0.v0 id,
    TRef.unary main_call0.v0 main_call0.v1 (broadcastInDim S16384x1 ![] bcast_S_S16384x1),
    TRef.binary main_call0.v1 (.of main_v3 : StableHlo.TRef sig ⟨S16384x1, .f32⟩) main_call0.v2 maximumf,
    TRef.unary (.of main_cst_3 : StableHlo.TRef sig ⟨S_, .f32⟩) main_call0.v3 id,
    TRef.unary main_call0.v3 main_call0.v4 (broadcastInDim S16384x1 ![] bcast_S_S16384x1),
    TRef.binary main_call0.v4 main_call0.v2 main_call0.v5 minimumf,
    reshape main_v4 main_v5 rfl shapeCasts_S16384x1_S16384,
    nullary main_cst_4 (constant S_ .f32 0x358637BD#32),
    nullary main_cst_5 (constant S_ .f32 0x3F7FFFEF#32),
    TRef.unary (.of main_cst_4 : StableHlo.TRef sig ⟨S_, .f32⟩) main_call1.v0 id,
    TRef.unary main_call1.v0 main_call1.v1 (broadcastInDim S16384 ![] bcast_S_S16384),
    TRef.binary main_call1.v1 (.of main_v5 : StableHlo.TRef sig ⟨S16384, .f32⟩) main_call1.v2 maximumf,
    TRef.unary (.of main_cst_5 : StableHlo.TRef sig ⟨S_, .f32⟩) main_call1.v3 id,
    TRef.unary main_call1.v3 main_call1.v4 (broadcastInDim S16384 ![] bcast_S_S16384),
    TRef.binary main_call1.v4 main_call1.v2 main_call1.v5 minimumf ]
set_option maxRecDepth 8192 in
theorem uclip_sub : (uclip : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., reshape_bufs_sub .., nullary_bufs_sub .., nullary_bufs_sub .., unary_bufs_sub .., unary_bufs_sub .., binary_bufs_sub .., unary_bufs_sub .., unary_bufs_sub .., binary_bufs_sub ..⟩
set_option maxRecDepth 8192 in
theorem uclip_fresh : (uclip : List (HloOp τ sig (Elt F))).Forall fun op => op.fresh = ∅ := by
  simp only [List.Forall]; repeat' constructor

/-- The degree-0 indicators of the eight knot spans and the degree-1 basis (`%7` … `%59`): the two halves of the first Cox–de Boor step. -/
abbrev basis1 : List (HloOp τ sig (Elt F)) :=
  [ unary main_v6 main_v7 (broadcastInDim S16384x1 ![0] bcast_S16384_S16384x1_0 : (⟨S16384, .f32⟩ : BufTy).Contents (Elt F) → (⟨S16384x1, .f32⟩ : BufTy).Contents (Elt F)),
    unary main_cst main_v8 ((extractStridedSlice S8 ![0] · slices_S9_S8_0) : (⟨S9, .f32⟩ : BufTy).Contents (Elt F) → (⟨S8, .f32⟩ : BufTy).Contents (Elt F)),
    unary main_v8 main_v9 (broadcastInDim S1x8 ![1] bcast_S8_S1x8_1 : (⟨S8, .f32⟩ : BufTy).Contents (Elt F) → (⟨S1x8, .f32⟩ : BufTy).Contents (Elt F)),
    unary main_cst main_v10 ((extractStridedSlice S8 ![1] · slices_S9_S8_1) : (⟨S9, .f32⟩ : BufTy).Contents (Elt F) → (⟨S8, .f32⟩ : BufTy).Contents (Elt F)),
    unary main_v10 main_v11 (broadcastInDim S1x8 ![1] bcast_S8_S1x8_1 : (⟨S8, .f32⟩ : BufTy).Contents (Elt F) → (⟨S1x8, .f32⟩ : BufTy).Contents (Elt F)),
    binary main_v11 main_v9 main_v12 (subf : (⟨S1x8, .f32⟩ : BufTy).Contents (Elt F) → (⟨S1x8, .f32⟩ : BufTy).Contents (Elt F) → (⟨S1x8, .f32⟩ : BufTy).Contents (Elt F)),
    unary main_v7 main_v13 (broadcastInDim S16384x8 ![0, 1] bcast_S16384x1_S16384x8_0_1 : (⟨S16384x1, .f32⟩ : BufTy).Contents (Elt F) → (⟨S16384x8, .f32⟩ : BufTy).Contents (Elt F)),
    unary main_v9 main_v14 (broadcastInDim S16384x8 ![0, 1] bcast_S1x8_S16384x8_0_1 : (⟨S1x8, .f32⟩ : BufTy).Contents (Elt F) → (⟨S16384x8, .f32⟩ : BufTy).Contents (Elt F)),
    binary main_v13 main_v14 main_v15 (cmpf .oge : (⟨S16384x8, .f32⟩ : BufTy).Contents (Elt F) → (⟨S16384x8, .f32⟩ : BufTy).Contents (Elt F) → (⟨S16384x8, .i1⟩ : BufTy).Contents (Elt F)),
    unary main_v7 main_v16 (broadcastInDim S16384x8 ![0, 1] bcast_S16384x1_S16384x8_0_1 : (⟨S16384x1, .f32⟩ : BufTy).Contents (Elt F) → (⟨S16384x8, .f32⟩ : BufTy).Contents (Elt F)),
    unary main_v11 main_v17 (broadcastInDim S16384x8 ![0, 1] bcast_S1x8_S16384x8_0_1 : (⟨S1x8, .f32⟩ : BufTy).Contents (Elt F) → (⟨S16384x8, .f32⟩ : BufTy).Contents (Elt F)),
    binary main_v16 main_v17 main_v18 (cmpf .olt : (⟨S16384x8, .f32⟩ : BufTy).Contents (Elt F) → (⟨S16384x8, .f32⟩ : BufTy).Contents (Elt F) → (⟨S16384x8, .i1⟩ : BufTy).Contents (Elt F)),
    binary main_v15 main_v18 main_v19 (andi : (⟨S16384x8, .i1⟩ : BufTy).Contents (Elt F) → (⟨S16384x8, .i1⟩ : BufTy).Contents (Elt F) → (⟨S16384x8, .i1⟩ : BufTy).Contents (Elt F)),
    unary main_v12 main_v20 (Host.absf : (⟨S1x8, .f32⟩ : BufTy).Contents (Elt F) → (⟨S1x8, .f32⟩ : BufTy).Contents (Elt F)),
    nullary main_cst_6 (constant S_ .f32 0x26901D7D#32),
    unary main_cst_6 main_v21 (broadcastInDim S1x8 ![] bcast_S_S1x8 : (⟨S_, .f32⟩ : BufTy).Contents (Elt F) → (⟨S1x8, .f32⟩ : BufTy).Contents (Elt F)),
    binary main_v20 main_v21 main_v22 (cmpf .oge : (⟨S1x8, .f32⟩ : BufTy).Contents (Elt F) → (⟨S1x8, .f32⟩ : BufTy).Contents (Elt F) → (⟨S1x8, .i1⟩ : BufTy).Contents (Elt F)),
    unary main_v22 main_v23 (broadcastInDim S16384x8 ![0, 1] bcast_S1x8_S16384x8_0_1 : (⟨S1x8, .i1⟩ : BufTy).Contents (Elt F) → (⟨S16384x8, .i1⟩ : BufTy).Contents (Elt F)),
    binary main_v19 main_v23 main_v24 (andi : (⟨S16384x8, .i1⟩ : BufTy).Contents (Elt F) → (⟨S16384x8, .i1⟩ : BufTy).Contents (Elt F) → (⟨S16384x8, .i1⟩ : BufTy).Contents (Elt F)),
    unary main_v24 main_v25 (uitofp .f32 : (⟨S16384x8, .i1⟩ : BufTy).Contents (Elt F) → (⟨S16384x8, .f32⟩ : BufTy).Contents (Elt F)),
    unary main_cst main_v26 ((extractStridedSlice S7 ![0] · slices_S9_S7_0) : (⟨S9, .f32⟩ : BufTy).Contents (Elt F) → (⟨S7, .f32⟩ : BufTy).Contents (Elt F)),
    unary main_cst main_v27 ((extractStridedSlice S7 ![1] · slices_S9_S7_1) : (⟨S9, .f32⟩ : BufTy).Contents (Elt F) → (⟨S7, .f32⟩ : BufTy).Contents (Elt F)),
    unary main_cst main_v28 ((extractStridedSlice S7 ![1] · slices_S9_S7_1) : (⟨S9, .f32⟩ : BufTy).Contents (Elt F) → (⟨S7, .f32⟩ : BufTy).Contents (Elt F)),
    unary main_cst main_v29 ((extractStridedSlice S7 ![2] · slices_S9_S7_2) : (⟨S9, .f32⟩ : BufTy).Contents (Elt F) → (⟨S7, .f32⟩ : BufTy).Contents (Elt F)),
    binary main_v27 main_v26 main_v30 (subf : (⟨S7, .f32⟩ : BufTy).Contents (Elt F) → (⟨S7, .f32⟩ : BufTy).Contents (Elt F) → (⟨S7, .f32⟩ : BufTy).Contents (Elt F)),
    binary main_v29 main_v28 main_v31 (subf : (⟨S7, .f32⟩ : BufTy).Contents (Elt F) → (⟨S7, .f32⟩ : BufTy).Contents (Elt F) → (⟨S7, .f32⟩ : BufTy).Contents (Elt F)),
    unary main_v30 main_v32 (Host.absf : (⟨S7, .f32⟩ : BufTy).Contents (Elt F) → (⟨S7, .f32⟩ : BufTy).Contents (Elt F)),
    nullary main_cst_7 (constant S_ .f32 0x26901D7D#32),
    unary main_cst_7 main_v33 (broadcastInDim S7 ![] bcast_S_S7 : (⟨S_, .f32⟩ : BufTy).Contents (Elt F) → (⟨S7, .f32⟩ : BufTy).Contents (Elt F)),
    binary main_v32 main_v33 main_v34 (cmpf .ogt : (⟨S7, .f32⟩ : BufTy).Contents (Elt F) → (⟨S7, .f32⟩ : BufTy).Contents (Elt F) → (⟨S7, .i1⟩ : BufTy).Contents (Elt F)),
    unary main_v31 main_v35 (Host.absf : (⟨S7, .f32⟩ : BufTy).Contents (Elt F) → (⟨S7, .f32⟩ : BufTy).Contents (Elt F)),
    nullary main_cst_8 (constant S_ .f32 0x26901D7D#32),
    unary main_cst_8 main_v36 (broadcastInDim S7 ![] bcast_S_S7 : (⟨S_, .f32⟩ : BufTy).Contents (Elt F) → (⟨S7, .f32⟩ : BufTy).Contents (Elt F)),
    binary main_v35 main_v36 main_v37 (cmpf .ogt : (⟨S7, .f32⟩ : BufTy).Contents (Elt F) → (⟨S7, .f32⟩ : BufTy).Contents (Elt F) → (⟨S7, .i1⟩ : BufTy).Contents (Elt F)),
    unary main_v26 main_v38 (broadcastInDim S1x7 ![1] bcast_S7_S1x7_1 : (⟨S7, .f32⟩ : BufTy).Contents (Elt F) → (⟨S1x7, .f32⟩ : BufTy).Contents (Elt F)),
    unary main_v7 main_v39 (broadcastInDim S16384x7 ![0, 1] bcast_S16384x1_S16384x7_0_1 : (⟨S16384x1, .f32⟩ : BufTy).Contents (Elt F) → (⟨S16384x7, .f32⟩ : BufTy).Contents (Elt F)),
    unary main_v38 main_v40 (broadcastInDim S16384x7 ![0, 1] bcast_S1x7_S16384x7_0_1 : (⟨S1x7, .f32⟩ : BufTy).Contents (Elt F) → (⟨S16384x7, .f32⟩ : BufTy).Contents (Elt F)),
    binary main_v39 main_v40 main_v41 (subf : (⟨S16384x7, .f32⟩ : BufTy).Contents (Elt F) → (⟨S16384x7, .f32⟩ : BufTy).Contents (Elt F) → (⟨S16384x7, .f32⟩ : BufTy).Contents (Elt F)),
    nullary main_cst_9 (constant S_ .f32 0x3F800000#32),
    TRef.unary (.of main_cst_9 : StableHlo.TRef sig ⟨S_, .f32⟩) main_call2.v0 id,
    TRef.unary main_call2.v0 main_call2.v1 (broadcastInDim S7 ![] bcast_S_S7),
    TRef.ternary (.of main_v34 : StableHlo.TRef sig ⟨S7, .i1⟩) (.of main_v30 : StableHlo.TRef sig ⟨S7, .f32⟩) main_call2.v1 main_call2.v2 select,
    unary main_v42 main_v43 (broadcastInDim S1x7 ![1] bcast_S7_S1x7_1 : (⟨S7, .f32⟩ : BufTy).Contents (Elt F) → (⟨S1x7, .f32⟩ : BufTy).Contents (Elt F)),
    unary main_v43 main_v44 (broadcastInDim S16384x7 ![0, 1] bcast_S1x7_S16384x7_0_1 : (⟨S1x7, .f32⟩ : BufTy).Contents (Elt F) → (⟨S16384x7, .f32⟩ : BufTy).Contents (Elt F)),
    binary main_v41 main_v44 main_v45 (Host.divf : (⟨S16384x7, .f32⟩ : BufTy).Contents (Elt F) → (⟨S16384x7, .f32⟩ : BufTy).Contents (Elt F) → (⟨S16384x7, .f32⟩ : BufTy).Contents (Elt F)),
    unary main_v25 main_v46 ((extractStridedSlice S16384x7 ![0, 0] · slices_S16384x8_S16384x7_0_0) : (⟨S16384x8, .f32⟩ : BufTy).Contents (Elt F) → (⟨S16384x7, .f32⟩ : BufTy).Contents (Elt F)),
    binary main_v45 main_v46 main_v47 (mulf : (⟨S16384x7, .f32⟩ : BufTy).Contents (Elt F) → (⟨S16384x7, .f32⟩ : BufTy).Contents (Elt F) → (⟨S16384x7, .f32⟩ : BufTy).Contents (Elt F)),
    nullary main_cst_10 (constant S_ .f32 0x00000000#32),
    TRef.unary (.of main_cst_10 : StableHlo.TRef sig ⟨S_, .f32⟩) main_call3.v0 id,
    TRef.unary (.of main_v34 : StableHlo.TRef sig ⟨S7, .i1⟩) main_call3.v1 (broadcastInDim S16384x7 ![1] bcast_S7_S16384x7_1),
    TRef.unary main_call3.v0 main_call3.v2 (broadcastInDim S16384x7 ![] bcast_S_S16384x7),
    TRef.ternary main_call3.v1 (.of main_v47 : StableHlo.TRef sig ⟨S16384x7, .f32⟩) main_call3.v2 main_call3.v3 select,
    unary main_v29 main_v49 (broadcastInDim S1x7 ![1] bcast_S7_S1x7_1 : (⟨S7, .f32⟩ : BufTy).Contents (Elt F) → (⟨S1x7, .f32⟩ : BufTy).Contents (Elt F)),
    unary main_v49 main_v50 (broadcastInDim S16384x7 ![0, 1] bcast_S1x7_S16384x7_0_1 : (⟨S1x7, .f32⟩ : BufTy).Contents (Elt F) → (⟨S16384x7, .f32⟩ : BufTy).Contents (Elt F)),
    unary main_v7 main_v51 (broadcastInDim S16384x7 ![0, 1] bcast_S16384x1_S16384x7_0_1 : (⟨S16384x1, .f32⟩ : BufTy).Contents (Elt F) → (⟨S16384x7, .f32⟩ : BufTy).Contents (Elt F)),
    binary main_v50 main_v51 main_v52 (subf : (⟨S16384x7, .f32⟩ : BufTy).Contents (Elt F) → (⟨S16384x7, .f32⟩ : BufTy).Contents (Elt F) → (⟨S16384x7, .f32⟩ : BufTy).Contents (Elt F)),
    nullary main_cst_11 (constant S_ .f32 0x3F800000#32),
    TRef.unary (.of main_cst_11 : StableHlo.TRef sig ⟨S_, .f32⟩) main_call4.v0 id,
    TRef.unary main_call4.v0 main_call4.v1 (broadcastInDim S7 ![] bcast_S_S7),
    TRef.ternary (.of main_v37 : StableHlo.TRef sig ⟨S7, .i1⟩) (.of main_v31 : StableHlo.TRef sig ⟨S7, .f32⟩) main_call4.v1 main_call4.v2 select,
    unary main_v53 main_v54 (broadcastInDim S1x7 ![1] bcast_S7_S1x7_1 : (⟨S7, .f32⟩ : BufTy).Contents (Elt F) → (⟨S1x7, .f32⟩ : BufTy).Contents (Elt F)),
    unary main_v54 main_v55 (broadcastInDim S16384x7 ![0, 1] bcast_S1x7_S16384x7_0_1 : (⟨S1x7, .f32⟩ : BufTy).Contents (Elt F) → (⟨S16384x7, .f32⟩ : BufTy).Contents (Elt F)),
    binary main_v52 main_v55 main_v56 (Host.divf : (⟨S16384x7, .f32⟩ : BufTy).Contents (Elt F) → (⟨S16384x7, .f32⟩ : BufTy).Contents (Elt F) → (⟨S16384x7, .f32⟩ : BufTy).Contents (Elt F)),
    unary main_v25 main_v57 ((extractStridedSlice S16384x7 ![0, 1] · slices_S16384x8_S16384x7_0_1) : (⟨S16384x8, .f32⟩ : BufTy).Contents (Elt F) → (⟨S16384x7, .f32⟩ : BufTy).Contents (Elt F)),
    binary main_v56 main_v57 main_v58 (mulf : (⟨S16384x7, .f32⟩ : BufTy).Contents (Elt F) → (⟨S16384x7, .f32⟩ : BufTy).Contents (Elt F) → (⟨S16384x7, .f32⟩ : BufTy).Contents (Elt F)),
    nullary main_cst_12 (constant S_ .f32 0x00000000#32),
    TRef.unary (.of main_cst_12 : StableHlo.TRef sig ⟨S_, .f32⟩) main_call5.v0 id,
    TRef.unary (.of main_v37 : StableHlo.TRef sig ⟨S7, .i1⟩) main_call5.v1 (broadcastInDim S16384x7 ![1] bcast_S7_S16384x7_1),
    TRef.unary main_call5.v0 main_call5.v2 (broadcastInDim S16384x7 ![] bcast_S_S16384x7),
    TRef.ternary main_call5.v1 (.of main_v58 : StableHlo.TRef sig ⟨S16384x7, .f32⟩) main_call5.v2 main_call5.v3 select ]
set_option maxRecDepth 8192 in
theorem basis1_sub : (basis1 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., nullary_bufs_sub .., unary_bufs_sub .., binary_bufs_sub .., unary_bufs_sub .., binary_bufs_sub .., unary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub ..⟩
set_option maxRecDepth 8192 in
theorem basis1_fresh : (basis1 : List (HloOp τ sig (Elt F))).Forall fun op => op.fresh = ∅ := by
  simp only [List.Forall]; repeat' constructor

/-- The degree-2 basis (`%60` … `%94`): the halves of the first step added, then the second step's two halves. -/
abbrev basis2 : List (HloOp τ sig (Elt F)) :=
  [ binary main_v48 main_v59 main_v60 (addf : (⟨S16384x7, .f32⟩ : BufTy).Contents (Elt F) → (⟨S16384x7, .f32⟩ : BufTy).Contents (Elt F) → (⟨S16384x7, .f32⟩ : BufTy).Contents (Elt F)),
    unary main_cst main_v61 ((extractStridedSlice S6 ![0] · slices_S9_S6_0) : (⟨S9, .f32⟩ : BufTy).Contents (Elt F) → (⟨S6, .f32⟩ : BufTy).Contents (Elt F)),
    unary main_cst main_v62 ((extractStridedSlice S6 ![2] · slices_S9_S6_2) : (⟨S9, .f32⟩ : BufTy).Contents (Elt F) → (⟨S6, .f32⟩ : BufTy).Contents (Elt F)),
    unary main_cst main_v63 ((extractStridedSlice S6 ![1] · slices_S9_S6_1) : (⟨S9, .f32⟩ : BufTy).Contents (Elt F) → (⟨S6, .f32⟩ : BufTy).Contents (Elt F)),
    unary main_cst main_v64 ((extractStridedSlice S6 ![3] · slices_S9_S6_3) : (⟨S9, .f32⟩ : BufTy).Contents (Elt F) → (⟨S6, .f32⟩ : BufTy).Contents (Elt F)),
    binary main_v62 main_v61 main_v65 (subf : (⟨S6, .f32⟩ : BufTy).Contents (Elt F) → (⟨S6, .f32⟩ : BufTy).Contents (Elt F) → (⟨S6, .f32⟩ : BufTy).Contents (Elt F)),
    binary main_v64 main_v63 main_v66 (subf : (⟨S6, .f32⟩ : BufTy).Contents (Elt F) → (⟨S6, .f32⟩ : BufTy).Contents (Elt F) → (⟨S6, .f32⟩ : BufTy).Contents (Elt F)),
    unary main_v65 main_v67 (Host.absf : (⟨S6, .f32⟩ : BufTy).Contents (Elt F) → (⟨S6, .f32⟩ : BufTy).Contents (Elt F)),
    nullary main_cst_13 (constant S_ .f32 0x26901D7D#32),
    unary main_cst_13 main_v68 (broadcastInDim S6 ![] bcast_S_S6 : (⟨S_, .f32⟩ : BufTy).Contents (Elt F) → (⟨S6, .f32⟩ : BufTy).Contents (Elt F)),
    binary main_v67 main_v68 main_v69 (cmpf .ogt : (⟨S6, .f32⟩ : BufTy).Contents (Elt F) → (⟨S6, .f32⟩ : BufTy).Contents (Elt F) → (⟨S6, .i1⟩ : BufTy).Contents (Elt F)),
    unary main_v66 main_v70 (Host.absf : (⟨S6, .f32⟩ : BufTy).Contents (Elt F) → (⟨S6, .f32⟩ : BufTy).Contents (Elt F)),
    nullary main_cst_14 (constant S_ .f32 0x26901D7D#32),
    unary main_cst_14 main_v71 (broadcastInDim S6 ![] bcast_S_S6 : (⟨S_, .f32⟩ : BufTy).Contents (Elt F) → (⟨S6, .f32⟩ : BufTy).Contents (Elt F)),
    binary main_v70 main_v71 main_v72 (cmpf .ogt : (⟨S6, .f32⟩ : BufTy).Contents (Elt F) → (⟨S6, .f32⟩ : BufTy).Contents (Elt F) → (⟨S6, .i1⟩ : BufTy).Contents (Elt F)),
    unary main_v61 main_v73 (broadcastInDim S1x6 ![1] bcast_S6_S1x6_1 : (⟨S6, .f32⟩ : BufTy).Contents (Elt F) → (⟨S1x6, .f32⟩ : BufTy).Contents (Elt F)),
    unary main_v7 main_v74 (broadcastInDim S16384x6 ![0, 1] bcast_S16384x1_S16384x6_0_1 : (⟨S16384x1, .f32⟩ : BufTy).Contents (Elt F) → (⟨S16384x6, .f32⟩ : BufTy).Contents (Elt F)),
    unary main_v73 main_v75 (broadcastInDim S16384x6 ![0, 1] bcast_S1x6_S16384x6_0_1 : (⟨S1x6, .f32⟩ : BufTy).Contents (Elt F) → (⟨S16384x6, .f32⟩ : BufTy).Contents (Elt F)),
    binary main_v74 main_v75 main_v76 (subf : (⟨S16384x6, .f32⟩ : BufTy).Contents (Elt F) → (⟨S16384x6, .f32⟩ : BufTy).Contents (Elt F) → (⟨S16384x6, .f32⟩ : BufTy).Contents (Elt F)),
    nullary main_cst_15 (constant S_ .f32 0x3F800000#32),
    TRef.unary (.of main_cst_15 : StableHlo.TRef sig ⟨S_, .f32⟩) main_call6.v0 id,
    TRef.unary main_call6.v0 main_call6.v1 (broadcastInDim S6 ![] bcast_S_S6),
    TRef.ternary (.of main_v69 : StableHlo.TRef sig ⟨S6, .i1⟩) (.of main_v65 : StableHlo.TRef sig ⟨S6, .f32⟩) main_call6.v1 main_call6.v2 select,
    unary main_v77 main_v78 (broadcastInDim S1x6 ![1] bcast_S6_S1x6_1 : (⟨S6, .f32⟩ : BufTy).Contents (Elt F) → (⟨S1x6, .f32⟩ : BufTy).Contents (Elt F)),
    unary main_v78 main_v79 (broadcastInDim S16384x6 ![0, 1] bcast_S1x6_S16384x6_0_1 : (⟨S1x6, .f32⟩ : BufTy).Contents (Elt F) → (⟨S16384x6, .f32⟩ : BufTy).Contents (Elt F)),
    binary main_v76 main_v79 main_v80 (Host.divf : (⟨S16384x6, .f32⟩ : BufTy).Contents (Elt F) → (⟨S16384x6, .f32⟩ : BufTy).Contents (Elt F) → (⟨S16384x6, .f32⟩ : BufTy).Contents (Elt F)),
    unary main_v60 main_v81 ((extractStridedSlice S16384x6 ![0, 0] · slices_S16384x7_S16384x6_0_0) : (⟨S16384x7, .f32⟩ : BufTy).Contents (Elt F) → (⟨S16384x6, .f32⟩ : BufTy).Contents (Elt F)),
    binary main_v80 main_v81 main_v82 (mulf : (⟨S16384x6, .f32⟩ : BufTy).Contents (Elt F) → (⟨S16384x6, .f32⟩ : BufTy).Contents (Elt F) → (⟨S16384x6, .f32⟩ : BufTy).Contents (Elt F)),
    nullary main_cst_16 (constant S_ .f32 0x00000000#32),
    TRef.unary (.of main_cst_16 : StableHlo.TRef sig ⟨S_, .f32⟩) main_call7.v0 id,
    TRef.unary (.of main_v69 : StableHlo.TRef sig ⟨S6, .i1⟩) main_call7.v1 (broadcastInDim S16384x6 ![1] bcast_S6_S16384x6_1),
    TRef.unary main_call7.v0 main_call7.v2 (broadcastInDim S16384x6 ![] bcast_S_S16384x6),
    TRef.ternary main_call7.v1 (.of main_v82 : StableHlo.TRef sig ⟨S16384x6, .f32⟩) main_call7.v2 main_call7.v3 select,
    unary main_v64 main_v84 (broadcastInDim S1x6 ![1] bcast_S6_S1x6_1 : (⟨S6, .f32⟩ : BufTy).Contents (Elt F) → (⟨S1x6, .f32⟩ : BufTy).Contents (Elt F)),
    unary main_v84 main_v85 (broadcastInDim S16384x6 ![0, 1] bcast_S1x6_S16384x6_0_1 : (⟨S1x6, .f32⟩ : BufTy).Contents (Elt F) → (⟨S16384x6, .f32⟩ : BufTy).Contents (Elt F)),
    unary main_v7 main_v86 (broadcastInDim S16384x6 ![0, 1] bcast_S16384x1_S16384x6_0_1 : (⟨S16384x1, .f32⟩ : BufTy).Contents (Elt F) → (⟨S16384x6, .f32⟩ : BufTy).Contents (Elt F)),
    binary main_v85 main_v86 main_v87 (subf : (⟨S16384x6, .f32⟩ : BufTy).Contents (Elt F) → (⟨S16384x6, .f32⟩ : BufTy).Contents (Elt F) → (⟨S16384x6, .f32⟩ : BufTy).Contents (Elt F)),
    nullary main_cst_17 (constant S_ .f32 0x3F800000#32),
    TRef.unary (.of main_cst_17 : StableHlo.TRef sig ⟨S_, .f32⟩) main_call8.v0 id,
    TRef.unary main_call8.v0 main_call8.v1 (broadcastInDim S6 ![] bcast_S_S6),
    TRef.ternary (.of main_v72 : StableHlo.TRef sig ⟨S6, .i1⟩) (.of main_v66 : StableHlo.TRef sig ⟨S6, .f32⟩) main_call8.v1 main_call8.v2 select,
    unary main_v88 main_v89 (broadcastInDim S1x6 ![1] bcast_S6_S1x6_1 : (⟨S6, .f32⟩ : BufTy).Contents (Elt F) → (⟨S1x6, .f32⟩ : BufTy).Contents (Elt F)),
    unary main_v89 main_v90 (broadcastInDim S16384x6 ![0, 1] bcast_S1x6_S16384x6_0_1 : (⟨S1x6, .f32⟩ : BufTy).Contents (Elt F) → (⟨S16384x6, .f32⟩ : BufTy).Contents (Elt F)),
    binary main_v87 main_v90 main_v91 (Host.divf : (⟨S16384x6, .f32⟩ : BufTy).Contents (Elt F) → (⟨S16384x6, .f32⟩ : BufTy).Contents (Elt F) → (⟨S16384x6, .f32⟩ : BufTy).Contents (Elt F)),
    unary main_v60 main_v92 ((extractStridedSlice S16384x6 ![0, 1] · slices_S16384x7_S16384x6_0_1) : (⟨S16384x7, .f32⟩ : BufTy).Contents (Elt F) → (⟨S16384x6, .f32⟩ : BufTy).Contents (Elt F)),
    binary main_v91 main_v92 main_v93 (mulf : (⟨S16384x6, .f32⟩ : BufTy).Contents (Elt F) → (⟨S16384x6, .f32⟩ : BufTy).Contents (Elt F) → (⟨S16384x6, .f32⟩ : BufTy).Contents (Elt F)),
    nullary main_cst_18 (constant S_ .f32 0x00000000#32),
    TRef.unary (.of main_cst_18 : StableHlo.TRef sig ⟨S_, .f32⟩) main_call9.v0 id,
    TRef.unary (.of main_v72 : StableHlo.TRef sig ⟨S6, .i1⟩) main_call9.v1 (broadcastInDim S16384x6 ![1] bcast_S6_S16384x6_1),
    TRef.unary main_call9.v0 main_call9.v2 (broadcastInDim S16384x6 ![] bcast_S_S16384x6),
    TRef.ternary main_call9.v1 (.of main_v93 : StableHlo.TRef sig ⟨S16384x6, .f32⟩) main_call9.v2 main_call9.v3 select ]
set_option maxRecDepth 8192 in
theorem basis2_sub : (basis2 : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub ..⟩
set_option maxRecDepth 8192 in
theorem basis2_fresh : (basis2 : List (HloOp τ sig (Elt F))).Forall fun op => op.fresh = ∅ := by
  simp only [List.Forall]; repeat' constructor

/-- The degree-3 basis (`%95` … `%130`): the third step, its halves added into the five basis values per row. -/
abbrev basis3 : List (HloOp τ sig (Elt F)) :=
  [ binary main_v83 main_v94 main_v95 (addf : (⟨S16384x6, .f32⟩ : BufTy).Contents (Elt F) → (⟨S16384x6, .f32⟩ : BufTy).Contents (Elt F) → (⟨S16384x6, .f32⟩ : BufTy).Contents (Elt F)),
    unary main_cst main_v96 ((extractStridedSlice S5 ![0] · slices_S9_S5_0) : (⟨S9, .f32⟩ : BufTy).Contents (Elt F) → (⟨S5, .f32⟩ : BufTy).Contents (Elt F)),
    unary main_cst main_v97 ((extractStridedSlice S5 ![3] · slices_S9_S5_3) : (⟨S9, .f32⟩ : BufTy).Contents (Elt F) → (⟨S5, .f32⟩ : BufTy).Contents (Elt F)),
    unary main_cst main_v98 ((extractStridedSlice S5 ![1] · slices_S9_S5_1) : (⟨S9, .f32⟩ : BufTy).Contents (Elt F) → (⟨S5, .f32⟩ : BufTy).Contents (Elt F)),
    unary main_cst main_v99 ((extractStridedSlice S5 ![4] · slices_S9_S5_4) : (⟨S9, .f32⟩ : BufTy).Contents (Elt F) → (⟨S5, .f32⟩ : BufTy).Contents (Elt F)),
    binary main_v97 main_v96 main_v100 (subf : (⟨S5, .f32⟩ : BufTy).Contents (Elt F) → (⟨S5, .f32⟩ : BufTy).Contents (Elt F) → (⟨S5, .f32⟩ : BufTy).Contents (Elt F)),
    binary main_v99 main_v98 main_v101 (subf : (⟨S5, .f32⟩ : BufTy).Contents (Elt F) → (⟨S5, .f32⟩ : BufTy).Contents (Elt F) → (⟨S5, .f32⟩ : BufTy).Contents (Elt F)),
    unary main_v100 main_v102 (Host.absf : (⟨S5, .f32⟩ : BufTy).Contents (Elt F) → (⟨S5, .f32⟩ : BufTy).Contents (Elt F)),
    nullary main_cst_19 (constant S_ .f32 0x26901D7D#32),
    unary main_cst_19 main_v103 (broadcastInDim S5 ![] bcast_S_S5 : (⟨S_, .f32⟩ : BufTy).Contents (Elt F) → (⟨S5, .f32⟩ : BufTy).Contents (Elt F)),
    binary main_v102 main_v103 main_v104 (cmpf .ogt : (⟨S5, .f32⟩ : BufTy).Contents (Elt F) → (⟨S5, .f32⟩ : BufTy).Contents (Elt F) → (⟨S5, .i1⟩ : BufTy).Contents (Elt F)),
    unary main_v101 main_v105 (Host.absf : (⟨S5, .f32⟩ : BufTy).Contents (Elt F) → (⟨S5, .f32⟩ : BufTy).Contents (Elt F)),
    nullary main_cst_20 (constant S_ .f32 0x26901D7D#32),
    unary main_cst_20 main_v106 (broadcastInDim S5 ![] bcast_S_S5 : (⟨S_, .f32⟩ : BufTy).Contents (Elt F) → (⟨S5, .f32⟩ : BufTy).Contents (Elt F)),
    binary main_v105 main_v106 main_v107 (cmpf .ogt : (⟨S5, .f32⟩ : BufTy).Contents (Elt F) → (⟨S5, .f32⟩ : BufTy).Contents (Elt F) → (⟨S5, .i1⟩ : BufTy).Contents (Elt F)),
    unary main_v96 main_v108 (broadcastInDim S1x5 ![1] bcast_S5_S1x5_1 : (⟨S5, .f32⟩ : BufTy).Contents (Elt F) → (⟨S1x5, .f32⟩ : BufTy).Contents (Elt F)),
    unary main_v7 main_v109 (broadcastInDim S16384x5 ![0, 1] bcast_S16384x1_S16384x5_0_1 : (⟨S16384x1, .f32⟩ : BufTy).Contents (Elt F) → (⟨S16384x5, .f32⟩ : BufTy).Contents (Elt F)),
    unary main_v108 main_v110 (broadcastInDim S16384x5 ![0, 1] bcast_S1x5_S16384x5_0_1 : (⟨S1x5, .f32⟩ : BufTy).Contents (Elt F) → (⟨S16384x5, .f32⟩ : BufTy).Contents (Elt F)),
    binary main_v109 main_v110 main_v111 (subf : (⟨S16384x5, .f32⟩ : BufTy).Contents (Elt F) → (⟨S16384x5, .f32⟩ : BufTy).Contents (Elt F) → (⟨S16384x5, .f32⟩ : BufTy).Contents (Elt F)),
    nullary main_cst_21 (constant S_ .f32 0x3F800000#32),
    TRef.unary (.of main_cst_21 : StableHlo.TRef sig ⟨S_, .f32⟩) main_call10.v0 id,
    TRef.unary main_call10.v0 main_call10.v1 (broadcastInDim S5 ![] bcast_S_S5),
    TRef.ternary (.of main_v104 : StableHlo.TRef sig ⟨S5, .i1⟩) (.of main_v100 : StableHlo.TRef sig ⟨S5, .f32⟩) main_call10.v1 main_call10.v2 select,
    unary main_v112 main_v113 (broadcastInDim S1x5 ![1] bcast_S5_S1x5_1 : (⟨S5, .f32⟩ : BufTy).Contents (Elt F) → (⟨S1x5, .f32⟩ : BufTy).Contents (Elt F)),
    unary main_v113 main_v114 (broadcastInDim S16384x5 ![0, 1] bcast_S1x5_S16384x5_0_1 : (⟨S1x5, .f32⟩ : BufTy).Contents (Elt F) → (⟨S16384x5, .f32⟩ : BufTy).Contents (Elt F)),
    binary main_v111 main_v114 main_v115 (Host.divf : (⟨S16384x5, .f32⟩ : BufTy).Contents (Elt F) → (⟨S16384x5, .f32⟩ : BufTy).Contents (Elt F) → (⟨S16384x5, .f32⟩ : BufTy).Contents (Elt F)),
    unary main_v95 main_v116 ((extractStridedSlice S16384x5 ![0, 0] · slices_S16384x6_S16384x5_0_0) : (⟨S16384x6, .f32⟩ : BufTy).Contents (Elt F) → (⟨S16384x5, .f32⟩ : BufTy).Contents (Elt F)),
    binary main_v115 main_v116 main_v117 (mulf : (⟨S16384x5, .f32⟩ : BufTy).Contents (Elt F) → (⟨S16384x5, .f32⟩ : BufTy).Contents (Elt F) → (⟨S16384x5, .f32⟩ : BufTy).Contents (Elt F)),
    nullary main_cst_22 (constant S_ .f32 0x00000000#32),
    TRef.unary (.of main_cst_22 : StableHlo.TRef sig ⟨S_, .f32⟩) main_call11.v0 id,
    TRef.unary (.of main_v104 : StableHlo.TRef sig ⟨S5, .i1⟩) main_call11.v1 (broadcastInDim S16384x5 ![1] bcast_S5_S16384x5_1),
    TRef.unary main_call11.v0 main_call11.v2 (broadcastInDim S16384x5 ![] bcast_S_S16384x5),
    TRef.ternary main_call11.v1 (.of main_v117 : StableHlo.TRef sig ⟨S16384x5, .f32⟩) main_call11.v2 main_call11.v3 select,
    unary main_v99 main_v119 (broadcastInDim S1x5 ![1] bcast_S5_S1x5_1 : (⟨S5, .f32⟩ : BufTy).Contents (Elt F) → (⟨S1x5, .f32⟩ : BufTy).Contents (Elt F)),
    unary main_v119 main_v120 (broadcastInDim S16384x5 ![0, 1] bcast_S1x5_S16384x5_0_1 : (⟨S1x5, .f32⟩ : BufTy).Contents (Elt F) → (⟨S16384x5, .f32⟩ : BufTy).Contents (Elt F)),
    unary main_v7 main_v121 (broadcastInDim S16384x5 ![0, 1] bcast_S16384x1_S16384x5_0_1 : (⟨S16384x1, .f32⟩ : BufTy).Contents (Elt F) → (⟨S16384x5, .f32⟩ : BufTy).Contents (Elt F)),
    binary main_v120 main_v121 main_v122 (subf : (⟨S16384x5, .f32⟩ : BufTy).Contents (Elt F) → (⟨S16384x5, .f32⟩ : BufTy).Contents (Elt F) → (⟨S16384x5, .f32⟩ : BufTy).Contents (Elt F)),
    nullary main_cst_23 (constant S_ .f32 0x3F800000#32),
    TRef.unary (.of main_cst_23 : StableHlo.TRef sig ⟨S_, .f32⟩) main_call12.v0 id,
    TRef.unary main_call12.v0 main_call12.v1 (broadcastInDim S5 ![] bcast_S_S5),
    TRef.ternary (.of main_v107 : StableHlo.TRef sig ⟨S5, .i1⟩) (.of main_v101 : StableHlo.TRef sig ⟨S5, .f32⟩) main_call12.v1 main_call12.v2 select,
    unary main_v123 main_v124 (broadcastInDim S1x5 ![1] bcast_S5_S1x5_1 : (⟨S5, .f32⟩ : BufTy).Contents (Elt F) → (⟨S1x5, .f32⟩ : BufTy).Contents (Elt F)),
    unary main_v124 main_v125 (broadcastInDim S16384x5 ![0, 1] bcast_S1x5_S16384x5_0_1 : (⟨S1x5, .f32⟩ : BufTy).Contents (Elt F) → (⟨S16384x5, .f32⟩ : BufTy).Contents (Elt F)),
    binary main_v122 main_v125 main_v126 (Host.divf : (⟨S16384x5, .f32⟩ : BufTy).Contents (Elt F) → (⟨S16384x5, .f32⟩ : BufTy).Contents (Elt F) → (⟨S16384x5, .f32⟩ : BufTy).Contents (Elt F)),
    unary main_v95 main_v127 ((extractStridedSlice S16384x5 ![0, 1] · slices_S16384x6_S16384x5_0_1) : (⟨S16384x6, .f32⟩ : BufTy).Contents (Elt F) → (⟨S16384x5, .f32⟩ : BufTy).Contents (Elt F)),
    binary main_v126 main_v127 main_v128 (mulf : (⟨S16384x5, .f32⟩ : BufTy).Contents (Elt F) → (⟨S16384x5, .f32⟩ : BufTy).Contents (Elt F) → (⟨S16384x5, .f32⟩ : BufTy).Contents (Elt F)),
    nullary main_cst_24 (constant S_ .f32 0x00000000#32),
    TRef.unary (.of main_cst_24 : StableHlo.TRef sig ⟨S_, .f32⟩) main_call13.v0 id,
    TRef.unary (.of main_v107 : StableHlo.TRef sig ⟨S5, .i1⟩) main_call13.v1 (broadcastInDim S16384x5 ![1] bcast_S5_S16384x5_1),
    TRef.unary main_call13.v0 main_call13.v2 (broadcastInDim S16384x5 ![] bcast_S_S16384x5),
    TRef.ternary main_call13.v1 (.of main_v128 : StableHlo.TRef sig ⟨S16384x5, .f32⟩) main_call13.v2 main_call13.v3 select,
    binary main_v118 main_v129 main_v130 (addf : (⟨S16384x5, .f32⟩ : BufTy).Contents (Elt F) → (⟨S16384x5, .f32⟩ : BufTy).Contents (Elt F) → (⟨S16384x5, .f32⟩ : BufTy).Contents (Elt F)) ]
set_option maxRecDepth 8192 in
theorem basis3_sub : (basis3 : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., unary_bufs_sub .., unary_bufs_sub .., ternary_bufs_sub .., binary_bufs_sub ..⟩
set_option maxRecDepth 8192 in
theorem basis3_fresh : (basis3 : List (HloOp τ sig (Elt F))).Forall fun op => op.fresh = ∅ := by
  simp only [List.Forall]; repeat' constructor

/-- The affine map (`%131` … `%142`): the two products of the basis with the transposed weights, the biases added, times x, plus the second coefficient. -/
abbrev affine : List (HloOp τ sig (Elt F)) :=
  [ unary main_arg2 main_v131 ((transpose S5x4096 [1, 0] · transposes_S4096x5_S5x4096_1_0) : (⟨S4096x5, .f32⟩ : BufTy).Contents (Elt F) → (⟨S5x4096, .f32⟩ : BufTy).Contents (Elt F)),
    binary main_v130 main_v131 main_v132 ((fun l r => Host.dotGeneral dot_S16384x5_S5x4096_S16384x4096_1_0_0_1_n_n none l r) : (⟨S16384x5, .f32⟩ : BufTy).Contents (Elt F) → (⟨S5x4096, .f32⟩ : BufTy).Contents (Elt F) → (⟨S16384x4096, .f32⟩ : BufTy).Contents (Elt F)),
    unary main_arg3 main_v133 (broadcastInDim S1x4096 ![1] bcast_S4096_S1x4096_1 : (⟨S4096, .f32⟩ : BufTy).Contents (Elt F) → (⟨S1x4096, .f32⟩ : BufTy).Contents (Elt F)),
    unary main_v133 main_v134 (broadcastInDim S16384x4096 ![0, 1] bcast_S1x4096_S16384x4096_0_1 : (⟨S1x4096, .f32⟩ : BufTy).Contents (Elt F) → (⟨S16384x4096, .f32⟩ : BufTy).Contents (Elt F)),
    binary main_v132 main_v134 main_v135 (addf : (⟨S16384x4096, .f32⟩ : BufTy).Contents (Elt F) → (⟨S16384x4096, .f32⟩ : BufTy).Contents (Elt F) → (⟨S16384x4096, .f32⟩ : BufTy).Contents (Elt F)),
    unary main_arg4 main_v136 ((transpose S5x4096 [1, 0] · transposes_S4096x5_S5x4096_1_0) : (⟨S4096x5, .f32⟩ : BufTy).Contents (Elt F) → (⟨S5x4096, .f32⟩ : BufTy).Contents (Elt F)),
    binary main_v130 main_v136 main_v137 ((fun l r => Host.dotGeneral dot_S16384x5_S5x4096_S16384x4096_1_0_0_1_n_n none l r) : (⟨S16384x5, .f32⟩ : BufTy).Contents (Elt F) → (⟨S5x4096, .f32⟩ : BufTy).Contents (Elt F) → (⟨S16384x4096, .f32⟩ : BufTy).Contents (Elt F)),
    unary main_arg5 main_v138 (broadcastInDim S1x4096 ![1] bcast_S4096_S1x4096_1 : (⟨S4096, .f32⟩ : BufTy).Contents (Elt F) → (⟨S1x4096, .f32⟩ : BufTy).Contents (Elt F)),
    unary main_v138 main_v139 (broadcastInDim S16384x4096 ![0, 1] bcast_S1x4096_S16384x4096_0_1 : (⟨S1x4096, .f32⟩ : BufTy).Contents (Elt F) → (⟨S16384x4096, .f32⟩ : BufTy).Contents (Elt F)),
    binary main_v137 main_v139 main_v140 (addf : (⟨S16384x4096, .f32⟩ : BufTy).Contents (Elt F) → (⟨S16384x4096, .f32⟩ : BufTy).Contents (Elt F) → (⟨S16384x4096, .f32⟩ : BufTy).Contents (Elt F)),
    binary main_v135 main_arg0 main_v141 (mulf : (⟨S16384x4096, .f32⟩ : BufTy).Contents (Elt F) → (⟨S16384x4096, .f32⟩ : BufTy).Contents (Elt F) → (⟨S16384x4096, .f32⟩ : BufTy).Contents (Elt F)),
    binary main_v141 main_v140 main_v142 (addf : (⟨S16384x4096, .f32⟩ : BufTy).Contents (Elt F) → (⟨S16384x4096, .f32⟩ : BufTy).Contents (Elt F) → (⟨S16384x4096, .f32⟩ : BufTy).Contents (Elt F)) ]
set_option maxRecDepth 8192 in
theorem affine_sub : (affine : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., binary_bufs_sub .., binary_bufs_sub ..⟩
set_option maxRecDepth 8192 in
theorem affine_fresh : (affine : List (HloOp τ sig (Elt F))).Forall fun op => op.fresh = ∅ := by
  simp only [List.Forall]; repeat' constructor

/-- @main's operations, in order. -/
abbrev ops : List (HloOp τ sig (Elt F)) := uclip ++ (basis1 ++ (basis2 ++ (basis3 ++ affine)))

set_option maxRecDepth 65536 in
set_option maxHeartbeats 4000000 in
/-- @main is that straight line: its three printed parts in turn, each outlined function's body at its call. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp uclip_sub op h, List.forall_iff_forall_mem.mp basis1_sub op h,
      List.forall_iff_forall_mem.mp basis2_sub op h, List.forall_iff_forall_mem.mp basis3_sub op h,
      List.forall_iff_forall_mem.mp affine_sub op h]

theorem ops_fresh : ∀ op ∈ (ops : List (HloOp τ sig (Elt F))), op.fresh = ∅ := fun op h => by
  simp only [ops, List.mem_append] at h
  rcases h with h | h | h | h | h
  exacts [List.forall_iff_forall_mem.mp uclip_fresh op h, List.forall_iff_forall_mem.mp basis1_fresh op h,
    List.forall_iff_forall_mem.mp basis2_fresh op h, List.forall_iff_forall_mem.mp basis3_fresh op h,
    List.forall_iff_forall_mem.mp affine_fresh op h]

/-- From any memory with zero counters every weakly fair execution of @main terminates, and every final state has
    each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.RefAffine.lean ====
/-
  The reference's last twelve operations read entry by entry.

  From the basis phi [16384, 5] the reference transposes each weight matrix to [5, 4096], multiplies (the host's plain
  product: entry (p, q) is the sum over k of phi (p, k) · W^T (k, q), and W^T (k, q) = W (q, k)), adds the bias laid as a
  row [1, 4096] and repeated down the rows, multiplies the first coefficient array by x and adds the second: entry
  (p, q) is  ((∑ k, phi (p, k) · Wa (q, k)) + ca q) · x (p, q) + ((∑ k, phi (p, k) · Wb (q, k)) + cb q).
-/
import proofs.«101300_j28544352649526_2_alg».proof.Proof.Gen.ReferenceIdeal
import proofs.«101300_j28544352649526_2_alg».proof.Proof.AffineSpec
import proofs.«101300_j28544352649526_2_alg».proof.Proof.LibDenseBias
import Idealize.ShloMosaic.Lib.ValueLayout

noncomputable section

namespace Cert.ReferenceIdeal.Affine

open Cert.ReferenceIdeal Cert.ReferenceIdeal.Facts₀ Idealize.ShloMosaic Idealize.ShloMosaic.ValueIdx

/-- The printed product's dimension record is the plain M×K by K×N one. -/
theorem dims_plain : dot_S16384x5_S5x4096_S16384x4096_1_0_0_1_n_n = DotDims.plain 16384 5 4096 := rfl

/-- A bias vector laid as a row [1, 4096] along the last axis: the row's entry q is the vector's. -/
theorem bias_row_entry (c : FVec Ideal S4096 .f32) (q : Fin 4096) :
    broadcastInDim S1x4096 ![1] bcast_S4096_S1x4096_1 c (ix2 (0 : Fin 1) q) = c (ix1 q) := by
  refine broadcastInDim_apply _ bcast_S4096_S1x4096_1 c (ix2 (0 : Fin 1) q) (ix1 q) fun ax => ?_
  match ax with
  | ⟨0, _⟩ =>
    show q.val = if (4096 : ℕ) = 1 then 0 else q.val
    rfl

/-- One coefficient array at an entry: the product with the transposed weights plus the repeated bias row. -/
theorem coeff_entry (phi : FVec Ideal S16384x5 .f32) (W : FVec Ideal S4096x5 .f32) (c : FVec Ideal S4096 .f32)
    (p : Fin 16384) (q : Fin 4096) :
    addf (Host.dotGeneral (F := Ideal) dot_S16384x5_S5x4096_S16384x4096_1_0_0_1_n_n none phi
          (transpose S5x4096 [1, 0] W transposes_S4096x5_S5x4096_1_0))
        (broadcastInDim S16384x4096 ![0, 1] bcast_S1x4096_S16384x4096_0_1
          (broadcastInDim S1x4096 ![1] bcast_S4096_S1x4096_1 c)) (ix2 p q)
      = Cert.SplineAffine.coeff phi W c p q := by
  rw [Cert.Lib.DenseBias.bias_host_entry, dims_plain, Cert.Lib.DenseBias.dense_host_entry, bias_row_entry]
  unfold Cert.SplineAffine.coeff
  congr 1
  refine Finset.sum_congr rfl fun k _ => ?_
  rw [transpose_ix2_apply]

/-- The reference's result from the basis: the specified array. -/
theorem result_eq (x : FVec Ideal S16384x4096 .f32) (phi : FVec Ideal S16384x5 .f32)
    (Wa : FVec Ideal S4096x5 .f32) (ca : FVec Ideal S4096 .f32) (Wb : FVec Ideal S4096x5 .f32) (cb : FVec Ideal S4096 .f32) :
    addf (mulf (addf (Host.dotGeneral (F := Ideal) dot_S16384x5_S5x4096_S16384x4096_1_0_0_1_n_n none phi
              (transpose S5x4096 [1, 0] Wa transposes_S4096x5_S5x4096_1_0))
            (broadcastInDim S16384x4096 ![0, 1] bcast_S1x4096_S16384x4096_0_1
              (broadcastInDim S1x4096 ![1] bcast_S4096_S1x4096_1 ca))) x)
        (addf (Host.dotGeneral (F := Ideal) dot_S16384x5_S5x4096_S16384x4096_1_0_0_1_n_n none phi
              (transpose S5x4096 [1, 0] Wb transposes_S4096x5_S5x4096_1_0))
            (broadcastInDim S16384x4096 ![0, 1] bcast_S1x4096_S16384x4096_0_1
              (broadcastInDim S1x4096 ![1] bcast_S4096_S1x4096_1 cb)))
      = Cert.SplineAffine.out x phi Wa ca Wb cb := by
  refine Cert.SplineAffine.eq_out x phi Wa ca Wb cb _ fun p q => ?_
  rw [addf_apply, mulf_apply, coeff_entry, coeff_entry]
  rfl

end Cert.ReferenceIdeal.Affine

end
-- ==== Proof.RefResult.lean ====
/-
  The reference's result buffer, from the buffer contents it starts from.

  The run is the four basis stretches and then the affine stretch.  No operation of the basis stretches, and none of the
  affine stretch, writes an argument buffer, so the affine stretch finds the arguments as launched and the basis where
  the fourth stretch left it; its twelve operations are then the specified array of x, that basis, the weights and biases.
-/
import proofs.«101300_j28544352649526_2_alg».proof.Proof.RefLine
import proofs.«101300_j28544352649526_2_alg».proof.Proof.RefAffine
import Idealize.ShloMosaic.PureOps.Ideal

noncomputable section

namespace Cert.ReferenceIdeal.Result

open Cert.ReferenceIdeal Cert.ReferenceIdeal.Gen Idealize.ShloMosaic Idealize.ShloMosaic.TcCoe Idealize.SL.Sem Idealize.ShloMosaic.StableHlo

variable (W : Valuation τ sig (Elt Ideal))

/-- The buffer contents after the four basis stretches. -/
abbrev basisOf : Valuation τ sig (Elt Ideal) :=
  after (Line.basis3 (F := Ideal)) (after Line.basis2 (after Line.basis1 (after Line.uclip W)))

/-- The whole run is the basis stretches, then the affine stretch. -/
theorem ops_split : after (Line.ops (F := Ideal)) W = after Line.affine (basisOf W) := by
  show after (Line.uclip ++ (Line.basis1 ++ (Line.basis2 ++ (Line.basis3 ++ Line.affine)))) W = _
  rw [after_append, after_append, after_append, after_append]

/-! ## The arguments are written by nothing -/

set_option maxRecDepth 16384 in
set_option maxHeartbeats 8000000 in
theorem basis_keeps_arg0 : basisOf W (Proc.devRef .tc main_arg0) = W (Proc.devRef .tc main_arg0) := by
  simp only [basisOf, Line.uclip, Line.basis1, Line.basis2, Line.basis3]
  after_results_simp
set_option maxRecDepth 16384 in
set_option maxHeartbeats 8000000 in
theorem basis_keeps_arg1 : basisOf W (Proc.devRef .tc main_arg1) = W (Proc.devRef .tc main_arg1) := by
  simp only [basisOf, Line.uclip, Line.basis1, Line.basis2, Line.basis3]
  after_results_simp
set_option maxRecDepth 16384 in
set_option maxHeartbeats 8000000 in
theorem basis_keeps_arg2 : basisOf W (Proc.devRef .tc main_arg2) = W (Proc.devRef .tc main_arg2) := by
  simp only [basisOf, Line.uclip, Line.basis1, Line.basis2, Line.basis3]
  after_results_simp
set_option maxRecDepth 16384 in
set_option maxHeartbeats 8000000 in
theorem basis_keeps_arg3 : basisOf W (Proc.devRef .tc main_arg3) = W (Proc.devRef .tc main_arg3) := by
  simp only [basisOf, Line.uclip, Line.basis1, Line.basis2, Line.basis3]
  after_results_simp
set_option maxRecDepth 16384 in
set_option maxHeartbeats 8000000 in
theorem basis_keeps_arg4 : basisOf W (Proc.devRef .tc main_arg4) = W (Proc.devRef .tc main_arg4) := by
  simp only [basisOf, Line.uclip, Line.basis1, Line.basis2, Line.basis3]
  after_results_simp
set_option maxRecDepth 16384 in
set_option maxHeartbeats 8000000 in
theorem basis_keeps_arg5 : basisOf W (Proc.devRef .tc main_arg5) = W (Proc.devRef .tc main_arg5) := by
  simp only [basisOf, Line.uclip, Line.basis1, Line.basis2, Line.basis3]
  after_results_simp

theorem affine_keeps_arg0 : after (Line.affine (F := Ideal)) W (Proc.devRef .tc main_arg0) = W (Proc.devRef .tc main_arg0) := by
  simp only [Line.affine]
  after_results_simp
theorem affine_keeps_arg1 : after (Line.affine (F := Ideal)) W (Proc.devRef .tc main_arg1) = W (Proc.devRef .tc main_arg1) := by
  simp only [Line.affine]
  after_results_simp
theorem affine_keeps_arg2 : after (Line.affine (F := Ideal)) W (Proc.devRef .tc main_arg2) = W (Proc.devRef .tc main_arg2) := by
  simp only [Line.affine]
  after_results_simp
theorem affine_keeps_arg3 : after (Line.affine (F := Ideal)) W (Proc.devRef .tc main_arg3) = W (Proc.devRef .tc main_arg3) := by
  simp only [Line.affine]
  after_results_simp
theorem affine_keeps_arg4 : after (Line.affine (F := Ideal)) W (Proc.devRef .tc main_arg4) = W (Proc.devRef .tc main_arg4) := by
  simp only [Line.affine]
  after_results_simp
theorem affine_keeps_arg5 : after (Line.affine (F := Ideal)) W (Proc.devRef .tc main_arg5) = W (Proc.devRef .tc main_arg5) := by
  simp only [Line.affine]
  after_results_simp

theorem keeps_arg0 : after (Line.ops (F := Ideal)) W (Proc.devRef .tc main_arg0) = W (Proc.devRef .tc main_arg0) := by
  rw [ops_split, affine_keeps_arg0, basis_keeps_arg0]
theorem keeps_arg1 : after (Line.ops (F := Ideal)) W (Proc.devRef .tc main_arg1) = W (Proc.devRef .tc main_arg1) := by
  rw [ops_split, affine_keeps_arg1, basis_keeps_arg1]
theorem keeps_arg2 : after (Line.ops (F := Ideal)) W (Proc.devRef .tc main_arg2) = W (Proc.devRef .tc main_arg2) := by
  rw [ops_split, affine_keeps_arg2, basis_keeps_arg2]
theorem keeps_arg3 : after (Line.ops (F := Ideal)) W (Proc.devRef .tc main_arg3) = W (Proc.devRef .tc main_arg3) := by
  rw [ops_split, affine_keeps_arg3, basis_keeps_arg3]
theorem keeps_arg4 : after (Line.ops (F := Ideal)) W (Proc.devRef .tc main_arg4) = W (Proc.devRef .tc main_arg4) := by
  rw [ops_split, affine_keeps_arg4, basis_keeps_arg4]
theorem keeps_arg5 : after (Line.ops (F := Ideal)) W (Proc.devRef .tc main_arg5) = W (Proc.devRef .tc main_arg5) := by
  rw [ops_split, affine_keeps_arg5, basis_keeps_arg5]

/-! ## The result -/

set_option maxRecDepth 8192 in
/-- The affine stretch from any contents Q: the specified array of Q's x, basis, weights and biases. -/
theorem affine_result (Q : Valuation τ sig (Elt Ideal)) :
    after (Line.affine (F := Ideal)) Q (Proc.devRef .tc main_v142)
      = Cert.SplineAffine.out (Q (Proc.devRef .tc main_arg0)) (Q (Proc.devRef .tc main_v130)) (Q (Proc.devRef .tc main_arg2))
          (Q (Proc.devRef .tc main_arg3)) (Q (Proc.devRef .tc main_arg4)) (Q (Proc.devRef .tc main_arg5)) := by
  simp only [Line.affine]
  after_results_simp
  exact Cert.ReferenceIdeal.Affine.result_eq _ _ _ _ _ _

/-- The reference's result: the specified array of the launched x, weights and biases and of the basis the fourth
    stretch leaves. -/
theorem result :
    after (Line.ops (F := Ideal)) W (Proc.devRef .tc main_v142)
      = Cert.SplineAffine.out (W (Proc.devRef .tc main_arg0)) (basisOf W (Proc.devRef .tc main_v130)) (W (Proc.devRef .tc main_arg2))
          (W (Proc.devRef .tc main_arg3)) (W (Proc.devRef .tc main_arg4)) (W (Proc.devRef .tc main_arg5)) := by
  rw [ops_split, affine_result, basis_keeps_arg0, basis_keeps_arg2, basis_keeps_arg3, basis_keeps_arg4, basis_keeps_arg5]

end Cert.ReferenceIdeal.Result

end
-- ==== Proof.SharedBasis.lean ====
/-
  The two programs compute the spline basis by the same host operations.

  Before it launches its kernel, the kernel's program runs, operation for operation, the reference's first four stretches
  (the clipped parameter, then the Cox–de Boor steps of degree 1, 2 and 3) — over buffers of its own.  Each stretch reads
  only a few buffers written before it (the knot vector, the clipped parameter, the two halves of the previous step), so
  the agreement of the two runs is carried stretch by stretch: if the buffers a stretch reads agree, the buffers it leaves
  for the next one agree.  Within a stretch both sides are read back as one composed term of those buffers, and the two
  terms are the same operations of the same shapes.
-/
import proofs.«101300_j28544352649526_2_alg».proof.Proof.Gen.KernelIdeal.Frame
import proofs.«101300_j28544352649526_2_alg».proof.Proof.RefLine
import Idealize.ShloMosaic.PureOps.Ideal

noncomputable section

namespace Cert.SharedBasis

open Cert Idealize.ShloMosaic Idealize.ShloMosaic.StableHlo Idealize.ShloMosaic.TcCoe Idealize.SL.Sem

/-- The knot vector's words are the same table in both programs. -/
theorem knots_eq : ReferenceIdeal.lit0 = KernelIdeal.lit0 := by
  funext k
  fin_cases k <;> rfl

/-! ## The kernel program's host operations, in the reference's stretches -/

/-- The clipped parameter (the kernel program's first four pieces: up to the second clip's result). -/
abbrev kUclip : List (HloOp KernelIdeal.τ KernelIdeal.sig (Elt Ideal)) :=
  KernelIdeal.Gen.hostOps0 ++ (KernelIdeal.Gen.hostOps0_1 ++ (KernelIdeal.Gen.hostOps0_2 ++ KernelIdeal.Gen.hostOps0_3))

variable (XR : Valuation ReferenceIdeal.τ ReferenceIdeal.sig (Elt Ideal))
  (XK : Valuation KernelIdeal.τ KernelIdeal.sig (Elt Ideal))

set_option maxRecDepth 8192 in
set_option maxHeartbeats 4000000 in
/-- From agreeing theta the two runs leave the same knot vector and the same clipped parameter. -/
theorem uclip_agree
    (h : (XR (Proc.devRef .tc ReferenceIdeal.main_arg1) : FVec Ideal ⟨2, ![16384, 1]⟩ .f32)
        = XK (Proc.devRef .tc KernelIdeal.main_arg1)) :
    ((after (ReferenceIdeal.Line.uclip (F := Ideal)) XR (Proc.devRef .tc ReferenceIdeal.main_cst) : FVec Ideal ⟨1, ![9]⟩ .f32)
        = after kUclip XK (Proc.devRef .tc KernelIdeal.main_cst))
    ∧ ((after (ReferenceIdeal.Line.uclip (F := Ideal)) XR (Proc.devRef .tc ReferenceIdeal.main_v6) : FVec Ideal ⟨1, ![16384]⟩ .f32)
        = after kUclip XK (Proc.devRef .tc KernelIdeal.main_v6)) := by
  constructor
  · simp only [ReferenceIdeal.Line.uclip, kUclip, KernelIdeal.Gen.hostOps0, KernelIdeal.Gen.hostOps0_1, KernelIdeal.Gen.hostOps0_2,
      KernelIdeal.Gen.hostOps0_3, List.cons_append, List.nil_append]
    after_results_simp
    rw [knots_eq]
    rfl
  · simp only [ReferenceIdeal.Line.uclip, kUclip, KernelIdeal.Gen.hostOps0, KernelIdeal.Gen.hostOps0_1, KernelIdeal.Gen.hostOps0_2,
      KernelIdeal.Gen.hostOps0_3, List.cons_append, List.nil_append]
    after_results_simp
    rw [h]
    rfl

/-- The span indicators and the first Cox–de Boor step (the kernel program's pieces up to the fourth selection's result). -/
abbrev kBasis1 : List (HloOp KernelIdeal.τ KernelIdeal.sig (Elt Ideal)) :=
  KernelIdeal.Gen.hostOps0_4 ++ (KernelIdeal.Gen.hostOps0_5 ++ (KernelIdeal.Gen.hostOps0_6 ++ (KernelIdeal.Gen.hostOps0_7 ++ (KernelIdeal.Gen.hostOps0_8 ++ (KernelIdeal.Gen.hostOps0_9 ++ (KernelIdeal.Gen.hostOps0_10 ++ (KernelIdeal.Gen.hostOps0_11)))))))

set_option maxRecDepth 16384 in
set_option maxHeartbeats 8000000 in
/-- From the same knot vector and clipped parameter the two runs leave the same knot vector, the same parameter column and the same two halves of the degree-1 basis. -/
theorem basis1_agree
    (hk : (XR (Proc.devRef .tc ReferenceIdeal.main_cst) : FVec Ideal ⟨1, ![9]⟩ .f32)
        = XK (Proc.devRef .tc KernelIdeal.main_cst))
    (hu : (XR (Proc.devRef .tc ReferenceIdeal.main_v6) : FVec Ideal ⟨1, ![16384]⟩ .f32)
        = XK (Proc.devRef .tc KernelIdeal.main_v6)) :
    ((after (ReferenceIdeal.Line.basis1 (F := Ideal)) XR (Proc.devRef .tc ReferenceIdeal.main_cst) : FVec Ideal ⟨1, ![9]⟩ .f32)
        = after kBasis1 XK (Proc.devRef .tc KernelIdeal.main_cst))
    ∧ ((after (ReferenceIdeal.Line.basis1 (F := Ideal)) XR (Proc.devRef .tc ReferenceIdeal.main_v7) : FVec Ideal ⟨2, ![16384, 1]⟩ .f32)
        = after kBasis1 XK (Proc.devRef .tc KernelIdeal.main_v7))
    ∧ ((after (ReferenceIdeal.Line.basis1 (F := Ideal)) XR (Proc.devRef .tc ReferenceIdeal.main_v48) : FVec Ideal ⟨2, ![16384, 7]⟩ .f32)
        = after kBasis1 XK (Proc.devRef .tc KernelIdeal.main_v48))
    ∧ ((after (ReferenceIdeal.Line.basis1 (F := Ideal)) XR (Proc.devRef .tc ReferenceIdeal.main_v59) : FVec Ideal ⟨2, ![16384, 7]⟩ .f32)
        = after kBasis1 XK (Proc.devRef .tc KernelIdeal.main_v59)) := by
  refine ⟨?_, ?_, ?_, ?_⟩ <;>
    (simp only [ReferenceIdeal.Line.basis1, kBasis1, KernelIdeal.Gen.hostOps0_4, KernelIdeal.Gen.hostOps0_5, KernelIdeal.Gen.hostOps0_6, KernelIdeal.Gen.hostOps0_7, KernelIdeal.Gen.hostOps0_8, KernelIdeal.Gen.hostOps0_9, KernelIdeal.Gen.hostOps0_10, KernelIdeal.Gen.hostOps0_11, List.cons_append, List.nil_append]
     after_results_simp
     try rw [hk]
     try rw [hu]
     all_goals rfl)

/-- The second Cox–de Boor step (the kernel program's pieces up to the eighth selection's result). -/
abbrev kBasis2 : List (HloOp KernelIdeal.τ KernelIdeal.sig (Elt Ideal)) :=
  KernelIdeal.Gen.hostOps0_12 ++ (KernelIdeal.Gen.hostOps0_13 ++ (KernelIdeal.Gen.hostOps0_14 ++ (KernelIdeal.Gen.hostOps0_15 ++ (KernelIdeal.Gen.hostOps0_16 ++ (KernelIdeal.Gen.hostOps0_17 ++ (KernelIdeal.Gen.hostOps0_18 ++ (KernelIdeal.Gen.hostOps0_19)))))))

set_option maxRecDepth 16384 in
set_option maxHeartbeats 8000000 in
/-- From the same knot vector, parameter column and degree-1 halves the two runs leave the same knot vector, parameter column and degree-2 halves. -/
theorem basis2_agree
    (hk : (XR (Proc.devRef .tc ReferenceIdeal.main_cst) : FVec Ideal ⟨1, ![9]⟩ .f32)
        = XK (Proc.devRef .tc KernelIdeal.main_cst))
    (hu : (XR (Proc.devRef .tc ReferenceIdeal.main_v7) : FVec Ideal ⟨2, ![16384, 1]⟩ .f32)
        = XK (Proc.devRef .tc KernelIdeal.main_v7))
    (hl : (XR (Proc.devRef .tc ReferenceIdeal.main_v48) : FVec Ideal ⟨2, ![16384, 7]⟩ .f32)
        = XK (Proc.devRef .tc KernelIdeal.main_v48))
    (hr : (XR (Proc.devRef .tc ReferenceIdeal.main_v59) : FVec Ideal ⟨2, ![16384, 7]⟩ .f32)
        = XK (Proc.devRef .tc KernelIdeal.main_v59)) :
    ((after (ReferenceIdeal.Line.basis2 (F := Ideal)) XR (Proc.devRef .tc ReferenceIdeal.main_cst) : FVec Ideal ⟨1, ![9]⟩ .f32)
        = after kBasis2 XK (Proc.devRef .tc KernelIdeal.main_cst))
    ∧ ((after (ReferenceIdeal.Line.basis2 (F := Ideal)) XR (Proc.devRef .tc ReferenceIdeal.main_v7) : FVec Ideal ⟨2, ![16384, 1]⟩ .f32)
        = after kBasis2 XK (Proc.devRef .tc KernelIdeal.main_v7))
    ∧ ((after (ReferenceIdeal.Line.basis2 (F := Ideal)) XR (Proc.devRef .tc ReferenceIdeal.main_v83) : FVec Ideal ⟨2, ![16384, 6]⟩ .f32)
        = after kBasis2 XK (Proc.devRef .tc KernelIdeal.main_v83))
    ∧ ((after (ReferenceIdeal.Line.basis2 (F := Ideal)) XR (Proc.devRef .tc ReferenceIdeal.main_v94) : FVec Ideal ⟨2, ![16384, 6]⟩ .f32)
        = after kBasis2 XK (Proc.devRef .tc KernelIdeal.main_v94)) := by
  refine ⟨?_, ?_, ?_, ?_⟩ <;>
    (simp only [ReferenceIdeal.Line.basis2, kBasis2, KernelIdeal.Gen.hostOps0_12, KernelIdeal.Gen.hostOps0_13, KernelIdeal.Gen.hostOps0_14, KernelIdeal.Gen.hostOps0_15, KernelIdeal.Gen.hostOps0_16, KernelIdeal.Gen.hostOps0_17, KernelIdeal.Gen.hostOps0_18, KernelIdeal.Gen.hostOps0_19, List.cons_append, List.nil_append]
     after_results_simp
     try rw [hk]
     try rw [hu]
     try rw [hl]
     try rw [hr]
     all_goals rfl)

/-- The third Cox–de Boor step and the kernel program's last piece (the halves added into the basis, then the operands' transposes and reshapes). -/
abbrev kBasis3 : List (HloOp KernelIdeal.τ KernelIdeal.sig (Elt Ideal)) :=
  KernelIdeal.Gen.hostOps0_20 ++ (KernelIdeal.Gen.hostOps0_21 ++ (KernelIdeal.Gen.hostOps0_22 ++ (KernelIdeal.Gen.hostOps0_23 ++ (KernelIdeal.Gen.hostOps0_24 ++ (KernelIdeal.Gen.hostOps0_25 ++ (KernelIdeal.Gen.hostOps0_26 ++ (KernelIdeal.Gen.hostOps0_27 ++ (KernelIdeal.Gen.hostOps0_28))))))))

set_option maxRecDepth 16384 in
set_option maxHeartbeats 8000000 in
/-- From the same knot vector, parameter column and degree-2 halves the two runs leave the same cubic basis (the kernel program's last piece also lays out the weights and biases, which the basis does not read). -/
theorem basis3_agree
    (hk : (XR (Proc.devRef .tc ReferenceIdeal.main_cst) : FVec Ideal ⟨1, ![9]⟩ .f32)
        = XK (Proc.devRef .tc KernelIdeal.main_cst))
    (hu : (XR (Proc.devRef .tc ReferenceIdeal.main_v7) : FVec Ideal ⟨2, ![16384, 1]⟩ .f32)
        = XK (Proc.devRef .tc KernelIdeal.main_v7))
    (hl : (XR (Proc.devRef .tc ReferenceIdeal.main_v83) : FVec Ideal ⟨2, ![16384, 6]⟩ .f32)
        = XK (Proc.devRef .tc KernelIdeal.main_v83))
    (hr : (XR (Proc.devRef .tc ReferenceIdeal.main_v94) : FVec Ideal ⟨2, ![16384, 6]⟩ .f32)
        = XK (Proc.devRef .tc KernelIdeal.main_v94)) :
    ((after (ReferenceIdeal.Line.basis3 (F := Ideal)) XR (Proc.devRef .tc ReferenceIdeal.main_v130) : FVec Ideal ⟨2, ![16384, 5]⟩ .f32)
        = after kBasis3 XK (Proc.devRef .tc KernelIdeal.main_v130)) := by
  simp only [ReferenceIdeal.Line.basis3, kBasis3, KernelIdeal.Gen.hostOps0_20, KernelIdeal.Gen.hostOps0_21, KernelIdeal.Gen.hostOps0_22, KernelIdeal.Gen.hostOps0_23, KernelIdeal.Gen.hostOps0_24, KernelIdeal.Gen.hostOps0_25, KernelIdeal.Gen.hostOps0_26, KernelIdeal.Gen.hostOps0_27, KernelIdeal.Gen.hostOps0_28, List.cons_append, List.nil_append]
  after_results_simp
  try rw [hk]
  try rw [hu]
  try rw [hl]
  try rw [hr]
  all_goals rfl

/-! ## The kernel program's buffers at its launch, stretch by stretch -/

/-- The kernel program's twenty-nine pieces are the four stretches in turn. -/
theorem pieces_eq :
    List.flatten [KernelIdeal.Gen.hostOps0 (F := Ideal), KernelIdeal.Gen.hostOps0_1, KernelIdeal.Gen.hostOps0_2, KernelIdeal.Gen.hostOps0_3,
      KernelIdeal.Gen.hostOps0_4, KernelIdeal.Gen.hostOps0_5, KernelIdeal.Gen.hostOps0_6, KernelIdeal.Gen.hostOps0_7, KernelIdeal.Gen.hostOps0_8,
      KernelIdeal.Gen.hostOps0_9, KernelIdeal.Gen.hostOps0_10, KernelIdeal.Gen.hostOps0_11, KernelIdeal.Gen.hostOps0_12, KernelIdeal.Gen.hostOps0_13,
      KernelIdeal.Gen.hostOps0_14, KernelIdeal.Gen.hostOps0_15, KernelIdeal.Gen.hostOps0_16, KernelIdeal.Gen.hostOps0_17, KernelIdeal.Gen.hostOps0_18,
      KernelIdeal.Gen.hostOps0_19, KernelIdeal.Gen.hostOps0_20, KernelIdeal.Gen.hostOps0_21, KernelIdeal.Gen.hostOps0_22, KernelIdeal.Gen.hostOps0_23,
      KernelIdeal.Gen.hostOps0_24, KernelIdeal.Gen.hostOps0_25, KernelIdeal.Gen.hostOps0_26, KernelIdeal.Gen.hostOps0_27, KernelIdeal.Gen.hostOps0_28]
      = kUclip ++ (kBasis1 ++ (kBasis2 ++ kBasis3)) := by
  simp only [List.flatten_cons, List.flatten_nil, List.append_nil, kUclip, kBasis1, kBasis2, kBasis3, List.append_assoc]

/-- What the kernel's launch finds in a buffer: the four stretches run in turn from the launch contents. -/
theorem V_eq (m : (ℓ : Loc KernelIdeal.nD KernelIdeal.τ KernelIdeal.sig) → Buf (Elt Ideal) ℓ) (c : Dev KernelIdeal.nD)
    (b : Ref KernelIdeal.sig .tc) :
    KernelIdeal.Gen.V m c b
      = after kBasis3 (after kBasis2 (after kBasis1 (after kUclip (fun b => m (c, b))))) (Proc.devRef .tc b) := by
  dsimp only [KernelIdeal.Gen.V]
  rw [pieces_eq, after_append, after_append, after_append]

/-- From memories that agree on theta, the basis the reference computes is the basis the kernel's launch finds. -/
theorem basis_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg1)
        = m ((c.tc : Thread KernelIdeal.nD KernelIdeal.τ).loc KernelIdeal.main_arg1)) :
    (after (ReferenceIdeal.Line.basis3 (F := Ideal)) (after ReferenceIdeal.Line.basis2 (after ReferenceIdeal.Line.basis1
        (after ReferenceIdeal.Line.uclip (launchContents m' c)))) (Proc.devRef .tc ReferenceIdeal.main_v130) : FVec Ideal ⟨2, ![16384, 5]⟩ .f32)
      = KernelIdeal.Gen.V m c KernelIdeal.main_v130 := by
  rw [V_eq]
  obtain ⟨a1, a2⟩ := uclip_agree (launchContents m' c) (fun b => m (c, b)) h
  obtain ⟨b1, b2, b3, b4⟩ := basis1_agree _ _ a1 a2
  obtain ⟨c1, c2, c3, c4⟩ := basis2_agree _ _ b1 b2 b3 b4
  exact basis3_agree _ _ c1 c2 c3 c4

end Cert.SharedBasis

end
-- ==== Proof.lean ====
/-
  The certificate of an affine map whose coefficients depend on a spline basis:  for x [16384, 4096], theta [16384, 1],
  weights Wa, Wb [4096, 5] and biases ca, cb [4096],

      out (p, q) = ((∑ k, phi (p, k) · Wa (q, k)) + ca q) · x (p, q) + ((∑ k, phi (p, k) · Wb (q, k)) + cb q),

  where phi (p, ·) are the five cubic B-spline basis values, over the clamped knot vector (0, 0, 0, 0, 1/2, 1, 1, 1, 1), of
  theta p clipped to [1e-6, 1 - 1e-6].

  Both programs compute phi on the host by the same operations (the Cox–de Boor recursion, written out degree by
  degree); the kernel then forms both coefficient arrays and the affine map tile by tile (512 rows at a time, each weight
  matrix transposed on the host, each bias laid as a row), the reference forms them on whole arrays.  On the extended
  reals the kernel's product into a zero accumulator and the host's product are the same sum over the five basis values,
  and every other operation is the same on both sides in the same order, so no finiteness is used: the precondition is
  never opened.

  The modules: AffineSpec (the function above), KernelEntry / KernelOperands / KernelPoint / KernelTiles / KernelClosed (the
  kernel's output array is that function of x, the weights, the biases and the basis its launch finds), RefLine (the
  reference's @main as a line of host operations, and its run), RefAffine / RefResult (the reference's result is that
  function of the basis its fourth stretch leaves), SharedBasis (the two bases are equal: the same operations stretch by
  stretch).  The ideal pass rewrote nothing, so the word-level kernel's idealization has nothing to restate.
-/
import proofs.«101300_j28544352649526_2_alg».proof.Defs
import proofs.«101300_j28544352649526_2_alg».proof.Proof.Gen.Kernel
import proofs.«101300_j28544352649526_2_alg».proof.Proof.Gen.Kernel.Skeleton
import proofs.«101300_j28544352649526_2_alg».proof.Proof.Gen.Kernel.Launch
import proofs.«101300_j28544352649526_2_alg».proof.Proof.Gen.Kernel.Points
import proofs.«101300_j28544352649526_2_alg».proof.Proof.Gen.Kernel.Frame
import proofs.«101300_j28544352649526_2_alg».proof.Proof.Gen.KernelIdeal
import proofs.«101300_j28544352649526_2_alg».proof.Proof.Gen.KernelIdeal.Skeleton
import proofs.«101300_j28544352649526_2_alg».proof.Proof.Gen.KernelIdeal.Launch
import proofs.«101300_j28544352649526_2_alg».proof.Proof.Gen.KernelIdeal.Points
import proofs.«101300_j28544352649526_2_alg».proof.Proof.Gen.KernelIdeal.Frame
import proofs.«101300_j28544352649526_2_alg».proof.Proof.Gen.KernelIdeal.Value
import proofs.«101300_j28544352649526_2_alg».proof.Proof.Gen.ReferenceIdeal
import proofs.«101300_j28544352649526_2_alg».proof.Proof.Gen.Pre_finite_inputs
import proofs.«101300_j28544352649526_2_alg».proof.Proof.KernelClosed
import proofs.«101300_j28544352649526_2_alg».proof.Proof.RefResult
import proofs.«101300_j28544352649526_2_alg».proof.Proof.SharedBasis
import Idealize.ShloMosaic.Adequacy
import Idealize.ShloMosaic.Init

noncomputable section

namespace Cert.Proof

open Idealize.ShloMosaic Idealize.ShloMosaic.TcCoe Idealize.SL.Sem

/-- The specified array of equal arrays is the same array. -/
theorem out_congr {x x' : FVec Ideal ⟨2, ![16384, 4096]⟩ .f32} {phi phi' : FVec Ideal ⟨2, ![16384, 5]⟩ .f32}
    {Wa Wa' : FVec Ideal ⟨2, ![4096, 5]⟩ .f32} {ca ca' : FVec Ideal ⟨1, ![4096]⟩ .f32}
    {Wb Wb' : FVec Ideal ⟨2, ![4096, 5]⟩ .f32} {cb cb' : FVec Ideal ⟨1, ![4096]⟩ .f32}
    (hx : x = x') (hphi : phi = phi') (hWa : Wa = Wa') (hca : ca = ca') (hWb : Wb = Wb') (hcb : cb = cb') :
    Cert.SplineAffine.out x phi Wa ca Wb cb = Cert.SplineAffine.out x' phi' Wa' ca' Wb' cb' := by
  subst hx hphi hWa hca hWb hcb
  rfl

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run, the arguments read back through operations that never write them. -/
theorem frame_ri : Cert.frame_ReferenceIdeal := fun m ρ _ =>
  (θ_run Cert.ReferenceIdeal.defs _ _).mono
    (fun r h c => ⟨(h c Cert.ReferenceIdeal.main_arg0).trans (Cert.ReferenceIdeal.Result.keeps_arg0 _),
      (h c Cert.ReferenceIdeal.main_arg1).trans (Cert.ReferenceIdeal.Result.keeps_arg1 _),
      (h c Cert.ReferenceIdeal.main_arg2).trans (Cert.ReferenceIdeal.Result.keeps_arg2 _),
      (h c Cert.ReferenceIdeal.main_arg3).trans (Cert.ReferenceIdeal.Result.keeps_arg3 _),
      (h c Cert.ReferenceIdeal.main_arg4).trans (Cert.ReferenceIdeal.Result.keeps_arg4 _),
      (h c Cert.ReferenceIdeal.main_arg5).trans (Cert.ReferenceIdeal.Result.keeps_arg5 _)⟩)
    (Cert.ReferenceIdeal.Line.run_main (F := Ideal) m ρ)

/-- The ideal pass rewrote nothing: there is no ledger entry to restate. -/
theorem preserves : Cert.preserves_Kernel_KernelIdeal := trivial

/-- Both idealized programs end at the specified array of x, the weights, the biases and the spline basis of theta: the
    kernel's output array block by block, the reference's result through its last twelve operations, and the basis the
    same on both sides because the two programs compute it by the same host operations from the same theta. -/
theorem algebraic : Cert.algebraic_KernelIdeal_ReferenceIdeal := by
  intro m ρ m' ρ' _ hagree
  refine ⟨fun c => Cert.SplineAffine.out (m ((c.tc : Thread Cert.KernelIdeal.nD Cert.KernelIdeal.τ).loc Cert.KernelIdeal.main_arg0))
      (Cert.KernelIdeal.Gen.V m c Cert.KernelIdeal.main_v130)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), Cert.KernelIdeal.Closed.run m ρ, ?_⟩
  refine (θ_run Cert.ReferenceIdeal.defs _ _).mono (fun r h c => ?_) (Cert.ReferenceIdeal.Line.run_main (F := Ideal) m' ρ')
  refine ⟨?_, (h c Cert.ReferenceIdeal.main_arg0).trans (Cert.ReferenceIdeal.Result.keeps_arg0 _),
      (h c Cert.ReferenceIdeal.main_arg1).trans (Cert.ReferenceIdeal.Result.keeps_arg1 _),
      (h c Cert.ReferenceIdeal.main_arg2).trans (Cert.ReferenceIdeal.Result.keeps_arg2 _),
      (h c Cert.ReferenceIdeal.main_arg3).trans (Cert.ReferenceIdeal.Result.keeps_arg3 _),
      (h c Cert.ReferenceIdeal.main_arg4).trans (Cert.ReferenceIdeal.Result.keeps_arg4 _),
      (h c Cert.ReferenceIdeal.main_arg5).trans (Cert.ReferenceIdeal.Result.keeps_arg5 _)⟩
  exact (h c Cert.ReferenceIdeal.main_v142).trans ((Cert.ReferenceIdeal.Result.result _).trans
    (out_congr (hagree c).1 (Cert.SharedBasis.basis_agree m m' c (hagree c).2.1) (hagree c).2.2.1 (hagree c).2.2.2.1
      (hagree c).2.2.2.2.1 (hagree c).2.2.2.2.2))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
